-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x512 : Shape := ⟨2, ![5000, 512]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 55
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S1x40, .f32⟩
  | .hbm, ⟨54, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x512_S512x64_S5000x64_1_0_0_1_n_n_wf : DotDims.WF S5000x512 S512x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x40.size a ≤ S64x40.size a
  hwx2_4 : ∀ i : grid2.Coords, EltTy.bits .f32 = 32 ∨ (Rect.block (s := S64x40) S64x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 134
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x1, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x40, .f32⟩
  | 117 => ⟨S1x40, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x40, .f32⟩
  | 5 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_15 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_17 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  dot_S100000x512_S512x64_S100000x64_1_0_0_1_n_n_wf : DotDims.WF S100000x512 S512x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibGatherRows.lean ====
/-
  A host gather of whole rows, read at an index.

  The operand is a matrix [N, B]; the start indices are a column [M, 1] of signed integers, one per result row; the
  result is the matrix [M, B] whose row k is the operand's row at the start index of k. A gather clamps every start
  index so that the slice fits inside the operand: the row that is read is the start index taken as a signed integer,
  negative values becoming 0 and values past the last row becoming N - 1. The lane coordinate passes through.
-/
import Idealize.ShloMosaic.PureOps
import Idealize.ShloMosaic.Lib.ValueIdx

noncomputable section

namespace Cert.GatherRows

open Idealize.ShloMosaic Idealize.ShloMosaic.ValueIdx

variable {α : Type}

/-- The dimension numbers of `x[idx]` on a matrix `[N, B]` at `M` row indices stored as a column `[M, 1]`: the row
    axis is collapsed and indexed, the lane axis is the slice. -/
abbrev rowGather (N M B : ℕ)
    (wf : GatherDims.WF ⟨2, ![N, B]⟩ ⟨2, ![M, 1]⟩ ⟨2, ![M, B]⟩ [1] [0] [] [0] [] 1 ![1, B]) :
    GatherDims ⟨2, ![N, B]⟩ ⟨2, ![M, 1]⟩ ⟨2, ![M, B]⟩ where
  offsetDims := [1]
  collapsedSliceDims := [0]
  operandBatchingDims := []
  startIndicesBatchingDims := []
  startIndexMap := [0]
  indexVectorDim := 1
  sliceSizes := ![1, B]
  wf := wf

/-- The operand row that result row `k` reads: its start index as a signed integer, clamped into `[0, N - 1]`. -/
def row {N M w : ℕ} (hN : 0 < N) (idx : IVec ⟨2, ![M, 1]⟩ w) (k : Fin M) : Fin N :=
  ⟨min (idx (ix2 k (0 : Fin 1))).toInt.toNat (N - 1), by omega⟩

/-- A start index that already names a row `r` of the operand is not moved by the clamp. -/
theorem row_of_toInt {N M w : ℕ} (hN : 0 < N) (idx : IVec ⟨2, ![M, 1]⟩ w) (k : Fin M) (r : Fin N)
    (h : (idx (ix2 k (0 : Fin 1))).toInt = (r.val : ℤ)) : row hN idx k = r := by
  refine Fin.ext ?_
  show min (idx (ix2 k (0 : Fin 1))).toInt.toNat (N - 1) = r.val
  rw [h]
  have := r.isLt
  simp only [Int.toNat_natCast]
  omega

/-- THE ROW GATHER READ AT `(k, q)`: the operand at the clamped row of `k`, lane `q`. -/
theorem gather_rows_apply {N M B w : ℕ} (hN : 0 < N) (wf) (x : (⟨2, ![N, B]⟩ : Shape).Idx → α)
    (idx : IVec ⟨2, ![M, 1]⟩ w) (k : Fin M) (q : Fin B) :
    Host.gather (rowGather N M B wf) x idx (ix2 k q) = x (ix2 (row hN idx k) q) := by
  unfold Host.gather
  congr 1
  funext a
  refine Fin.ext ?_
  match a with
  | ⟨0, _⟩ =>
    show (rowGather N M B wf).start (ix2 k q) idx 0 + (rowGather N M B wf).batchCoord (ix2 k q) 0
      + (rowGather N M B wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M B wf).startIndexMap from List.mem_singleton.mpr rfl)]
    have hsi : (rowGather N M B wf).siIdx (ix2 k q) ⟨List.idxOf (0 : Fin 2) (rowGather N M B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGather N M B wf).start (ix2 k q) idx 1 + (rowGather N M B wf).batchCoord (ix2 k q) 1
      + (rowGather N M B wf).offCoord (ix2 k q) 1 = q.val
    rw [GatherDims.batchCoord_eq_zero _ _ _ List.not_mem_nil]
    unfold GatherDims.start
    rw [dif_neg (show ¬ (1 : Fin 2) ∈ (rowGather N M B wf).startIndexMap by
      show ¬ (1 : Fin 2) ∈ ([0] : List (Fin 2)); decide)]
    unfold GatherDims.offCoord
    rw [dif_pos (show (1 : Fin 2) ∈ (rowGather N M B wf).sKept by
      rw [GatherDims.mem_sKept]; exact ⟨by show ¬ (1 : Fin 2) ∈ ([0] : List (Fin 2)); decide, List.not_mem_nil⟩)]
    simp only [Nat.zero_add]
    rfl

end Cert.GatherRows

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.LibScatterAddRead.lean ====
/-
  A host scatter that ADDS, read at an index, on the extended reals.

  On the extended reals the accumulating scatter has one value whatever the order of the additions: the operand's
  element plus the sum of the update elements whose result index is that element. Two index layouts are read here,
  both with one start index per update row stored as a column [M, 1] of signed integers, both scattering along the
  operand's leading axis: a vector [N] receiving scalars and a matrix [N, B] receiving whole rows. Update row k lands
  on operand row r exactly when the signed start index of k equals r (a start index outside [0, N) lands nowhere and
  is dropped), so in both layouts the sum runs over the SAME set of update rows
      { k : the start index of k is r },
  and for the matrix the lane passes through: element (r, q) receives the elements (k, q) of those rows.
-/
import proofs.«108780_j12859132084330_2_alg».proof.Proof.LibScatterRead
import Idealize.ShloMosaic.PureOps.Ideal

noncomputable section

open scoped BigOperators

namespace Cert.ScatterAddRead

open Idealize.ShloMosaic Idealize.ShloMosaic.ValueIdx Cert.ScatterRead
open scoped Classical

/-- The update rows whose signed start index is `r`. -/
def landing {M w : ℕ} (idx : IVec ⟨2, ![M, 1]⟩ w) (r : ℕ) : Finset (Fin M) :=
  Finset.univ.filter fun k => (idx (ix2 k (0 : Fin 1))).toInt = (r : ℤ)

theorem mem_landing {M w : ℕ} (idx : IVec ⟨2, ![M, 1]⟩ w) (r : ℕ) (k : Fin M) :
    k ∈ landing idx r ↔ (idx (ix2 k (0 : Fin 1))).toInt = (r : ℤ) := by
  unfold landing; rw [Finset.mem_filter]; exact ⟨fun h => h.2, fun h => ⟨Finset.mem_univ _, h⟩⟩

/-- A rank-1 index set is its one coordinate range. -/
def idxEquiv1 {n : ℕ} : (⟨1, ![n]⟩ : Shape).Idx ≃ Fin n where
  toFun i := i 0
  invFun := ix1
  left_inv i := (eq_ix1 i).symm
  right_inv _ := rfl

/-- THE ACCUMULATING VECTOR SCATTER READ AT `r`: the operand's element plus the sum of the updates of the rows that
    land on `r`. -/
theorem scatterAdd_vec_apply {φ : FTy} {N M w : ℕ} (wf) (x : FVec Ideal ⟨1, ![N]⟩ φ) (idx : IVec ⟨2, ![M, 1]⟩ w)
    (upd : FVec Ideal ⟨1, ![M]⟩ φ) (r : Fin N) :
    Host.scatterAdd (vecDims N M wf) x idx upd (ix1 r) = (x (ix1 r) + ∑ k ∈ landing idx r.val, upd (ix1 k) : EReal) := by
  show Ideal.hostScatterAdd (vecDims N M wf) x idx upd (ix1 r) = _
  unfold Ideal.hostScatterAdd landing
  congr 1
  rw [Finset.sum_filter, Finset.sum_filter, ← Equiv.sum_comp (idxEquiv1 (n := M)).symm]
  refine Finset.sum_congr rfl fun k _ => ?_
  show (if (vecDims N M wf).resultIdx? (ix1 k) idx = some (ix1 r) then upd (ix1 k) else 0) = _
  by_cases h : (idx (ix2 k (0 : Fin 1))).toInt = (r.val : ℤ)
  · rw [if_pos h, if_pos ((vecDims_lands wf (ix1 k) idx (ix1 r)).mpr h)]
  · rw [if_neg h, if_neg fun h' => h ((vecDims_lands wf (ix1 k) idx (ix1 r)).mp h')]

/-- THE ACCUMULATING ROW SCATTER READ AT `(r, q)`: the operand's element plus the sum, over the rows that land on
    `r`, of their elements in lane `q`. -/
theorem scatterAdd_row_apply {φ : FTy} {N M B w : ℕ} (wf) (x : FVec Ideal ⟨2, ![N, B]⟩ φ) (idx : IVec ⟨2, ![M, 1]⟩ w)
    (upd : FVec Ideal ⟨2, ![M, B]⟩ φ) (r : Fin N) (q : Fin B) :
    Host.scatterAdd (rowDims N M B wf) x idx upd (ix2 r q)
      = (x (ix2 r q) + ∑ k ∈ landing idx r.val, upd (ix2 k q) : EReal) := by
  show Ideal.hostScatterAdd (rowDims N M B wf) x idx upd (ix2 r q) = _
  unfold Ideal.hostScatterAdd landing
  congr 1
  rw [Finset.sum_filter, sum_idx2, Finset.sum_filter]
  refine Finset.sum_congr rfl fun k _ => ?_
  by_cases h : (idx (ix2 k (0 : Fin 1))).toInt = (r.val : ℤ)
  · rw [if_pos h, Finset.sum_eq_single q]
    · rw [if_pos ((rowDims_lands wf (ix2 k q) idx (ix2 r q)).mpr ⟨h, rfl⟩)]
    · intro b _ hb
      rw [if_neg]
      intro h'
      exact hb (Fin.ext ((rowDims_lands wf (ix2 k b) idx (ix2 r q)).mp h').2)
    · intro hq; exact absurd (Finset.mem_univ q) hq
  · rw [if_neg h]
    refine Finset.sum_eq_zero fun b _ => ?_
    rw [if_neg]
    intro h'
    exact h ((rowDims_lands wf (ix2 k b) idx (ix2 r q)).mp h').1

end Cert.ScatterAddRead

end
-- ==== Proof.Spec.lean ====
/-
  The mathematics of a two-layer graph convolution followed by a dense layer and a row softmax, on the extended reals,
  in the two arrangements this certificate compares.

  A graph on N = 100000 nodes has E = 1600000 directed edges (src k -> dst k). Node r has degree
  deg r = (number of edges whose destination is r) + 1 and scale d r = (deg r)^(-1/2). One layer maps node features
  P : N x 64 to
      C r j = max (sum_{k : dst k = r} P (src k) j * (d (src k) * d (dst k)) + P r j * (d r * d r) + b j) 0.
  The other arrangement first scales the features, Hs r j = P r j * d r, adds the scaled rows along the edges, and
  multiplies once more at the destination:
      C r j = max (d r * (sum_{k : dst k = r} Hs (src k) j + Hs r j) + b j) 0.
  The two agree when P and d are finite, by distributivity. The edge list is an integer array; a source index is wrapped
  (a negative value has N added) and then clamped into [0, N-1] when a row is read, a destination index selects the
  row an edge is added to only when, read as a signed integer, it is a row number.
-/
import Idealize.ShloMosaic.PureOps
import Idealize.ShloMosaic.PureOps.Ideal
import Idealize.ShloMosaic.Lib.ValueIdx
import proofs.«108780_j12859132084330_2_alg».proof.Proof.LibGatherRows
import proofs.«108780_j12859132084330_2_alg».proof.Proof.LibScatterAddRead

noncomputable section

open scoped BigOperators

namespace Cert.Gcn

open Idealize.ShloMosaic Idealize.ShloMosaic.ValueIdx Cert.GatherRows Cert.ScatterAddRead

/-- The number of nodes. -/
abbrev N : ℕ := 100000
/-- The number of edges. -/
abbrev E : ℕ := 1600000

/-! ## The edge list -/

/-- An index wrapped the way array indexing wraps it: a negative value has the number of rows added. -/
def wrapIdx (v : BitVec 32) : BitVec 32 := Scalar.select (IntOp.cmpi .slt v 0#32) (IntOp.addi v 100000#32) v

/-- The wrapped source indices, as a column. -/
def srcCol (ei : IVec ⟨2, ![2, E]⟩ 32) : IVec ⟨2, ![E, 1]⟩ 32 := fun i => wrapIdx (ei (ix2 (0 : Fin 2) (i 0)))
/-- The destination indices as stored, as a column. -/
def dstCol (ei : IVec ⟨2, ![2, E]⟩ 32) : IVec ⟨2, ![E, 1]⟩ 32 := fun i => ei (ix2 (1 : Fin 2) (i 0))
/-- The wrapped destination indices, as a column. -/
def dstWrapCol (ei : IVec ⟨2, ![2, E]⟩ 32) : IVec ⟨2, ![E, 1]⟩ 32 := fun i => wrapIdx (ei (ix2 (1 : Fin 2) (i 0)))

/-- The row an index column selects for edge `k` when a row is read: signed, clamped into `[0, N - 1]`. -/
def rowOf (col : IVec ⟨2, ![E, 1]⟩ 32) (k : Fin E) : Fin N := row (N := N) (by decide) col k

section Layers

variable (src dst dstw : IVec ⟨2, ![E, 1]⟩ 32)

/-! ## Degrees and scales -/

/-- The degree of node `r`: one per edge arriving at `r`, and one for the node itself. -/
def deg (r : Fin N) : EReal := ((0 : EReal) + ∑ _k ∈ landing dst r.val, (1 : EReal)) + 1

/-- The scale of node `r`. -/
def dis (r : Fin N) : EReal := Ideal.rsqrt (deg dst r)

/-! ## One row of a matrix product -/

/-- Entry `q` of the row vector `a` times the matrix `W`. -/
def matRow {K M : ℕ} (a : Fin K → EReal) (W : Fin K → Fin M → EReal) (q : Fin M) : EReal := ∑ j : Fin K, a j * W j q

/-! ## A layer, features scaled first -/

/-- The sum of the scaled source rows over the edges arriving at `r`. -/
def aggK (Hs : Fin N → Fin 64 → EReal) (r : Fin N) (j : Fin 64) : EReal :=
  (0 : EReal) + ∑ k ∈ landing dst r.val, Hs (rowOf src k) j

/-- The layer's output from scaled features `Hs r j = P r j * d r`. -/
def combK (d : Fin N → EReal) (Hs : Fin N → Fin 64 → EReal) (b : Fin 64 → EReal) (r : Fin N) (j : Fin 64) : EReal :=
  max (d r * (aggK src dst Hs r j + Hs r j) + b j) 0

/-! ## A layer, every edge weighted -/

/-- The weighted sum of the source rows over the edges arriving at `r`. -/
def aggR (d : Fin N → EReal) (P : Fin N → Fin 64 → EReal) (r : Fin N) (j : Fin 64) : EReal :=
  (0 : EReal) + ∑ k ∈ landing dst r.val, P (rowOf src k) j * (d (rowOf src k) * d (rowOf dstw k))

/-- The layer's output from unscaled features. -/
def combR (d : Fin N → EReal) (P : Fin N → Fin 64 → EReal) (b : Fin 64 → EReal) (r : Fin N) (j : Fin 64) : EReal :=
  max ((aggR src dst dstw d P r j + P r j * (d r * d r)) + b j) 0

/-! ## The row softmax -/

/-- The largest entry of a row (folded from minus infinity). -/
def rowMax (l : Fin 40 → EReal) : EReal := (Finset.univ : Finset (Fin 40)).fold max (Ideal.ofBits .f32 0xFF800000#32) l

/-- The softmax of a row at `q`, shifted by the row's maximum. -/
def softmaxRow (l : Fin 40 → EReal) (q : Fin 40) : EReal :=
  Ideal.div (Ideal.exp (l q - rowMax l)) (∑ k : Fin 40, Ideal.exp (l k - rowMax l))

/-! ## The two programs, end to end, at an index -/

variable (x : Fin N → Fin 512 → EReal) (W1 : Fin 512 → Fin 64 → EReal) (b1 : Fin 64 → EReal)
  (W2 : Fin 64 → Fin 64 → EReal) (b2 : Fin 64 → EReal) (Wo : Fin 64 → Fin 40 → EReal) (bo : Fin 40 → EReal)

/-- Scaled first-layer features. -/
def hs1 (r : Fin N) (q : Fin 64) : EReal := matRow (x r) W1 q * dis dst r
/-- Scaled second-layer features. -/
def hs2 (r : Fin N) (q : Fin 64) : EReal := matRow (combK src dst (dis dst) (hs1 dst x W1) b1 r) W2 q * dis dst r
/-- The logits, features scaled first. -/
def logitsK (r : Fin N) (q : Fin 40) : EReal :=
  matRow (combK src dst (dis dst) (hs2 src dst x W1 b1 W2) b2 r) Wo q + bo q
/-- The result, features scaled first. -/
def outK (r : Fin N) (q : Fin 40) : EReal := softmaxRow (logitsK src dst x W1 b1 W2 b2 Wo bo r) q

/-- Unscaled first-layer features. -/
def p1 (r : Fin N) (q : Fin 64) : EReal := matRow (x r) W1 q
/-- Unscaled second-layer features. -/
def p2 (r : Fin N) (q : Fin 64) : EReal := matRow (combR src dst dstw (dis dst) (p1 x W1) b1 r) W2 q
/-- The logits, every edge weighted. -/
def logitsR (r : Fin N) (q : Fin 40) : EReal :=
  matRow (combR src dst dstw (dis dst) (p2 src dst dstw x W1 b1 W2) b2 r) Wo q + bo q
/-- The result, every edge weighted. -/
def outR (r : Fin N) (q : Fin 40) : EReal := softmaxRow (logitsR src dst dstw x W1 b1 W2 b2 Wo bo r) q

end Layers

/-! ## The three dense stages as whole-array functions

Each dense stage works on blocks of 5000 rows; row `r` of its result depends on row `r` of the row-blocked operands and
on the whole of the small ones, so the whole result is one function of the whole operands. -/

/-- Stage 0: `(X W) * D`, `D` a column. -/
def stage0 (X : (⟨2, ![N, 512]⟩ : Shape).Idx → EReal) (W : (⟨2, ![512, 64]⟩ : Shape).Idx → EReal)
    (D : (⟨2, ![N, 1]⟩ : Shape).Idx → EReal) : (⟨2, ![N, 64]⟩ : Shape).Idx → EReal := fun i =>
  matRow (fun j => X (ix2 (i 0) j)) (fun j q => W (ix2 j q)) (i 1) * D (ix2 (i 0) (0 : Fin 1))

/-- The combined and rectified features inside stages 1 and 2 at `(r, j)`. -/
def comb (H A : (⟨2, ![N, 64]⟩ : Shape).Idx → EReal) (D : (⟨2, ![N, 1]⟩ : Shape).Idx → EReal)
    (B : (⟨2, ![1, 64]⟩ : Shape).Idx → EReal) (r : Fin N) (j : Fin 64) : EReal :=
  max (D (ix2 r (0 : Fin 1)) * (A (ix2 r j) + H (ix2 r j)) + B (ix2 (0 : Fin 1) j)) 0

/-- Stage 1: `(comb W) * D`. -/
def stage1 (H A : (⟨2, ![N, 64]⟩ : Shape).Idx → EReal) (D : (⟨2, ![N, 1]⟩ : Shape).Idx → EReal)
    (B : (⟨2, ![1, 64]⟩ : Shape).Idx → EReal) (W : (⟨2, ![64, 64]⟩ : Shape).Idx → EReal) :
    (⟨2, ![N, 64]⟩ : Shape).Idx → EReal := fun i =>
  matRow (comb H A D B (i 0)) (fun j q => W (ix2 j q)) (i 1) * D (ix2 (i 0) (0 : Fin 1))

/-- Stage 2: the row softmax of `comb W + Bo`. -/
def stage2 (H A : (⟨2, ![N, 64]⟩ : Shape).Idx → EReal) (D : (⟨2, ![N, 1]⟩ : Shape).Idx → EReal)
    (B : (⟨2, ![1, 64]⟩ : Shape).Idx → EReal) (W : (⟨2, ![64, 40]⟩ : Shape).Idx → EReal)
    (Bo : (⟨2, ![1, 40]⟩ : Shape).Idx → EReal) : (⟨2, ![N, 40]⟩ : Shape).Idx → EReal := fun i =>
  softmaxRow (fun q => matRow (comb H A D B (i 0)) (fun j q => W (ix2 j q)) q + Bo (ix2 (0 : Fin 1) q)) (i 1)

end Cert.Gcn

end
-- ==== Proof.LibDotOfSums.lean ====
/-
  The dot product with a sum of vectors is the sum of the dot products, on finite extended reals.

  On the extended reals a product does not distribute over a sum when an infinity is present, so the law is stated for
  families of REAL numbers read as extended reals: for a vector a and a finite family of vectors b e,
      Σ_d a_d · (Σ_e b_{e,d})  =  Σ_e Σ_d b_{e,d} · a_d .
  The proof moves both sides into the reals (a finite sum or a product of reals read as extended reals is the
  extended real of the real sum or product), where it is distributivity, an exchange of the two sums and
  commutativity of the product.
-/
import Mathlib.Data.EReal.Operations
import Mathlib.Algebra.BigOperators.Ring.Finset
import Mathlib.Algebra.BigOperators.Group.Finset.Sigma

noncomputable section

open scoped BigOperators

namespace Cert.DotOfSums

/-- A finite sum of reals read as extended reals is the extended real of the real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW: the dot product of `a` with the sum over `e ∈ E` of the vectors `b e` is the sum over `e ∈ E` of the
    dot products of `b e` with `a`. -/
theorem dot_of_sums {ι κ : Type} [Fintype κ] (E : Finset ι) (a : κ → ℝ) (b : ι → κ → ℝ) :
    ∑ d, (a d : EReal) * ∑ e ∈ E, (b e d : EReal) = ∑ e ∈ E, ∑ d, (b e d : EReal) * (a d : EReal) := by
  have hl : ∀ d, (a d : EReal) * ∑ e ∈ E, (b e d : EReal) = ((a d * ∑ e ∈ E, b e d : ℝ) : EReal) := fun d => by
    rw [EReal.coe_mul, coe_sum]
  have hr : ∀ e, ∑ d, (b e d : EReal) * (a d : EReal) = ((∑ d, b e d * a d : ℝ) : EReal) := fun e => by
    rw [coe_sum]; exact Finset.sum_congr rfl fun d _ => (EReal.coe_mul _ _).symm
  rw [Finset.sum_congr rfl fun d _ => hl d, Finset.sum_congr rfl fun e _ => hr e, ← coe_sum, ← coe_sum]
  congr 1
  simp only [Finset.mul_sum]
  rw [Finset.sum_comm]
  exact Finset.sum_congr rfl fun e _ => Finset.sum_congr rfl fun d _ => mul_comm _ _

end Cert.DotOfSums

end
-- ==== Proof.Algebra.lean ====
/-
  The two arrangements of the graph convolution give the same extended reals when the inputs are finite.

  Everything a layer multiplies is then a real number: a degree is a positive natural number, so its inverse square
  root is a real; a row of a matrix product of reals is a real; a maximum of reals is a real. On reals the scale of the
  destination node distributes over the sum along the arriving edges,
      d r * (sum_k P (src k) * d (src k) + P r * d r) = sum_k P (src k) * (d (src k) * d r) + P r * (d r * d r),
  and an edge arrives at r exactly when its destination index, read signed, is r, so the wrapped and clamped
  destination row of such an edge is r itself.
-/
import proofs.«108780_j12859132084330_2_alg».proof.Proof.Spec
import proofs.«108780_j12859132084330_2_alg».proof.Proof.LibDotOfSums
import Mathlib.Data.EReal.Operations

noncomputable section

open scoped BigOperators

namespace Cert.Gcn

open Idealize.ShloMosaic Idealize.ShloMosaic.ValueIdx Cert.GatherRows Cert.ScatterAddRead Cert.DotOfSums

/-! ## Finite extended reals -/

/-- An extended real that is a real number. -/
def IsReal (x : EReal) : Prop := ∃ a : ℝ, x = (a : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert i s hi ih =>
    rw [Finset.sum_insert hi]
    exact (h i (Finset.mem_insert_self i s)).add (ih fun j hj => h j (Finset.mem_insert_of_mem hj))

/-- A row of a product of real matrices is real. -/
theorem IsReal.matRow {K M : ℕ} {a : Fin K → EReal} {W : Fin K → Fin M → EReal} (ha : ∀ j, IsReal (a j))
    (hW : ∀ j q, IsReal (W j q)) (q : Fin M) : IsReal (matRow a W q) :=
  IsReal.sum _ _ fun j _ => (ha j).mul (hW j q)

/-! ## Degrees and scales are real -/

section

variable (src dst dstw : IVec ⟨2, ![E, 1]⟩ 32)

/-- A degree is a positive real: the number of arriving edges plus one. -/
theorem deg_pos_real (r : Fin N) : ∃ a : ℝ, 0 < a ∧ deg dst r = (a : EReal) := by
  refine ⟨(∑ _k ∈ landing dst r.val, (1 : ℝ)) + 1,
    add_pos_of_nonneg_of_pos (Finset.sum_nonneg fun _ _ => zero_le_one) one_pos, ?_⟩
  unfold deg
  rw [zero_add, EReal.coe_add, coe_sum, EReal.coe_one]

/-- The inverse square root of a positive real is real. -/
theorem rsqrt_pos_real {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-- A scale is real. -/
theorem dis_real (r : Fin N) : IsReal (dis dst r) := by
  obtain ⟨a, ha, h⟩ := deg_pos_real dst r
  exact ⟨(Real.sqrt a)⁻¹, by unfold dis; rw [h, rsqrt_pos_real ha]⟩

/-! ## One layer, both ways -/

/-- With real features and real scales the layer computed from scaled features is the layer with every edge
    weighted: the destination's scale distributes over the sum along the arriving edges. -/
theorem layer_eq (hdw : ∀ (r : Fin N) (k : Fin E), k ∈ landing dst r.val → rowOf dstw k = r)
    (d : Fin N → EReal) (P : Fin N → Fin 64 → EReal) (b : Fin 64 → EReal)
    (hd : ∀ r, IsReal (d r)) (hP : ∀ r j, IsReal (P r j)) (r : Fin N) (j : Fin 64) :
    combK src dst d (fun r j => P r j * d r) b r j = combR src dst dstw d P b r j := by
  unfold combK combR aggK aggR
  choose dv hdv using hd
  choose Pv hPv using hP
  have hsum : ∑ k ∈ landing dst r.val, P (rowOf src k) j * (d (rowOf src k) * d (rowOf dstw k))
      = ∑ k ∈ landing dst r.val, P (rowOf src k) j * (d (rowOf src k) * d r) :=
    Finset.sum_congr rfl fun k hk => by rw [hdw r k hk]
  rw [hsum]
  have key : d r * (((0 : EReal) + ∑ k ∈ landing dst r.val, P (rowOf src k) j * d (rowOf src k)) + P r j * d r)
      = ((0 : EReal) + ∑ k ∈ landing dst r.val, P (rowOf src k) j * (d (rowOf src k) * d r)) + P r j * (d r * d r) := by
    simp only [hdv, hPv, zero_add, ← EReal.coe_mul, ← coe_sum, ← EReal.coe_add]
    refine congrArg _ ?_
    rw [mul_add, Finset.mul_sum]
    refine congrArg₂ _ (Finset.sum_congr rfl fun k _ => by ring) (by ring)
  rw [key]

/-- The weighted layer of real features, real scales and a real bias is real. -/
theorem combR_real (d : Fin N → EReal) (P : Fin N → Fin 64 → EReal) (b : Fin 64 → EReal)
    (hd : ∀ r, IsReal (d r)) (hP : ∀ r j, IsReal (P r j)) (hb : ∀ j, IsReal (b j)) (r : Fin N) (j : Fin 64) :
    IsReal (combR src dst dstw d P b r j) := by
  unfold combR aggR
  refine IsReal.max ?_ IsReal.zero
  refine IsReal.add (IsReal.add (IsReal.add IsReal.zero (IsReal.sum _ _ fun k _ => ?_)) ?_) (hb j)
  · exact (hP _ _).mul ((hd _).mul (hd _))
  · exact (hP _ _).mul ((hd _).mul (hd _))

/-! ## The two programs agree -/

variable (x : Fin N → Fin 512 → EReal) (W1 : Fin 512 → Fin 64 → EReal) (b1 : Fin 64 → EReal)
  (W2 : Fin 64 → Fin 64 → EReal) (b2 : Fin 64 → EReal) (Wo : Fin 64 → Fin 40 → EReal) (bo : Fin 40 → EReal)

/-- THE EQUALITY: for finite node features, weights of the two layers and first bias, the result computed from scaled
    features is the result with every edge weighted. -/
theorem out_eq (hdw : ∀ (r : Fin N) (k : Fin E), k ∈ landing dst r.val → rowOf dstw k = r)
    (hx : ∀ r j, IsReal (x r j)) (hW1 : ∀ j q, IsReal (W1 j q)) (hb1 : ∀ j, IsReal (b1 j))
    (hW2 : ∀ j q, IsReal (W2 j q)) (r : Fin N) (q : Fin 40) :
    outK src dst x W1 b1 W2 b2 Wo bo r q = outR src dst dstw x W1 b1 W2 b2 Wo bo r q := by
  have hd : ∀ r, IsReal (dis dst r) := dis_real dst
  have hp1 : ∀ r j, IsReal (p1 x W1 r j) := fun r j => IsReal.matRow (hx r) hW1 j
  have hc1 : ∀ r j, combK src dst (dis dst) (hs1 dst x W1) b1 r j = combR src dst dstw (dis dst) (p1 x W1) b1 r j :=
    fun r j => layer_eq src dst dstw hdw (dis dst) (p1 x W1) b1 hd hp1 r j
  have hc1r : ∀ r j, IsReal (combR src dst dstw (dis dst) (p1 x W1) b1 r j) :=
    combR_real src dst dstw (dis dst) (p1 x W1) b1 hd hp1 hb1
  have hs2 : hs2 src dst x W1 b1 W2 = fun r q => p2 src dst dstw x W1 b1 W2 r q * dis dst r := by
    funext r q
    unfold hs2 p2
    rw [show combK src dst (dis dst) (hs1 dst x W1) b1 r = combR src dst dstw (dis dst) (p1 x W1) b1 r from
      funext fun j => hc1 r j]
  have hp2 : ∀ r j, IsReal (p2 src dst dstw x W1 b1 W2 r j) := fun r j => IsReal.matRow (hc1r r) hW2 j
  have hc2 : ∀ j, combK src dst (dis dst) (Cert.Gcn.hs2 src dst x W1 b1 W2) b2 r j
      = combR src dst dstw (dis dst) (p2 src dst dstw x W1 b1 W2) b2 r j := fun j => by
    rw [hs2]
    exact layer_eq src dst dstw hdw (dis dst) (p2 src dst dstw x W1 b1 W2) b2 hd hp2 r j
  unfold outK outR
  rw [show logitsK src dst x W1 b1 W2 b2 Wo bo r = logitsR src dst dstw x W1 b1 W2 b2 Wo bo r from by
    funext q'
    unfold logitsK logitsR
    rw [show combK src dst (dis dst) (Cert.Gcn.hs2 src dst x W1 b1 W2) b2 r
      = combR src dst dstw (dis dst) (p2 src dst dstw x W1 b1 W2) b2 r from funext hc2]]

end

end Cert.Gcn

end
-- ==== Proof.Compose.lean ====
/-
  The three dense stages, chained through the two edge aggregations, are the scaled-features arrangement at an index;
  and an edge that arrives at a row has that row as its wrapped and clamped destination.
-/
import proofs.«108780_j12859132084330_2_alg».proof.Proof.Spec
import Idealize.ShloMosaic.Lib.Affine

noncomputable section

open scoped BigOperators

namespace Cert.Gcn

open Idealize.ShloMosaic Idealize.ShloMosaic.ValueIdx Cert.GatherRows Cert.ScatterAddRead

/-! ## Arriving edges -/

/-- A word that is not one is zero. -/
theorem bit_eq_zero_of_ne_one (c : BitVec 1) (h : ¬ c = 1#1) : c = 0#1 := by revert c; decide

/-- An index that reads as a nonnegative signed integer is not moved by wrapping. -/
theorem wrapIdx_of_nonneg (v : BitVec 32) (h : 0 ≤ v.toInt) : wrapIdx v = v := by
  unfold wrapIdx
  have hc : IntOp.cmpi .slt v 0#32 = 0#1 := bit_eq_zero_of_ne_one _ fun h1 => by
    rw [IntOp.cmpi_slt] at h1
    have h0 : (0#32 : BitVec 32).toInt = 0 := by decide
    omega
  rw [hc]
  rfl

/-- An edge arriving at row `r` — its stored destination index reads, signed, as `r` — has `r` as its wrapped and
    clamped destination row. -/
theorem rowOf_dstWrap_of_landing (ei : IVec ⟨2, ![2, E]⟩ 32) (r : Fin N) (k : Fin E)
    (hk : k ∈ landing (dstCol ei) r.val) : rowOf (dstWrapCol ei) k = r := by
  have hv : (ei (ix2 (1 : Fin 2) k)).toInt = (r.val : ℤ) := (mem_landing (dstCol ei) r.val k).mp hk
  unfold rowOf
  refine row_of_toInt _ _ k r ?_
  show (wrapIdx (ei (ix2 (1 : Fin 2) k))).toInt = _
  rw [wrapIdx_of_nonneg _ (by omega)]
  exact hv

/-! ## The chain of stages at an index -/

section

variable (src dst : IVec ⟨2, ![E, 1]⟩ 32)
variable (X : (⟨2, ![N, 512]⟩ : Shape).Idx → EReal) (W1a : (⟨2, ![512, 64]⟩ : Shape).Idx → EReal)
  (D : (⟨2, ![N, 1]⟩ : Shape).Idx → EReal) (A1 A2 : (⟨2, ![N, 64]⟩ : Shape).Idx → EReal)
  (B1 B2 : (⟨2, ![1, 64]⟩ : Shape).Idx → EReal) (W2a : (⟨2, ![64, 64]⟩ : Shape).Idx → EReal)
  (Woa : (⟨2, ![64, 40]⟩ : Shape).Idx → EReal) (Bo : (⟨2, ![1, 40]⟩ : Shape).Idx → EReal)

/-- When the scale column holds the scales and each aggregated array holds, at `(r, j)`, the sum over the edges
    arriving at `r` of the previous stage's source rows, the last stage's result at `(r, q)` is the scaled-features
    arrangement's. -/
theorem stages_apply (hD : ∀ r : Fin N, D (ix2 r (0 : Fin 1)) = dis dst r)
    (hA1 : ∀ (r : Fin N) (j : Fin 64), A1 (ix2 r j)
      = (0 : EReal) + ∑ k ∈ landing dst r.val, stage0 X W1a D (ix2 (rowOf src k) j))
    (hA2 : ∀ (r : Fin N) (j : Fin 64), A2 (ix2 r j)
      = (0 : EReal) + ∑ k ∈ landing dst r.val, stage1 (stage0 X W1a D) A1 D B1 W2a (ix2 (rowOf src k) j))
    (r : Fin N) (q : Fin 40) :
    stage2 (stage1 (stage0 X W1a D) A1 D B1 W2a) A2 D B2 Woa Bo (ix2 r q)
      = outK src dst (fun r j => X (ix2 r j)) (fun j q => W1a (ix2 j q)) (fun j => B1 (ix2 (0 : Fin 1) j))
          (fun j q => W2a (ix2 j q)) (fun j => B2 (ix2 (0 : Fin 1) j)) (fun j q => Woa (ix2 j q))
          (fun q => Bo (ix2 (0 : Fin 1) q)) r q := by
  have h0 : ∀ (r : Fin N) (j : Fin 64), stage0 X W1a D (ix2 r j)
      = hs1 dst (fun r j => X (ix2 r j)) (fun j q => W1a (ix2 j q)) r j := fun r j => by
    show matRow (fun j => X (ix2 r j)) (fun j q => W1a (ix2 j q)) j * D (ix2 r (0 : Fin 1)) = _
    rw [hD]; rfl
  have hc1 : ∀ (r : Fin N) (j : Fin 64), comb (stage0 X W1a D) A1 D B1 r j
      = combK src dst (dis dst) (hs1 dst (fun r j => X (ix2 r j)) (fun j q => W1a (ix2 j q)))
          (fun j => B1 (ix2 (0 : Fin 1) j)) r j := fun r j => by
    unfold comb combK aggK
    rw [hD, hA1, h0, Finset.sum_congr rfl fun k _ => h0 (rowOf src k) j]
  have h1 : ∀ (r : Fin N) (j : Fin 64), stage1 (stage0 X W1a D) A1 D B1 W2a (ix2 r j)
      = hs2 src dst (fun r j => X (ix2 r j)) (fun j q => W1a (ix2 j q)) (fun j => B1 (ix2 (0 : Fin 1) j))
          (fun j q => W2a (ix2 j q)) r j := fun r j => by
    show matRow (comb (stage0 X W1a D) A1 D B1 r) (fun j q => W2a (ix2 j q)) j * D (ix2 r (0 : Fin 1)) = _
    rw [hD, show comb (stage0 X W1a D) A1 D B1 r = _ from funext fun j => hc1 r j]; rfl
  have hc2 : ∀ (j : Fin 64), comb (stage1 (stage0 X W1a D) A1 D B1 W2a) A2 D B2 r j
      = combK src dst (dis dst) (hs2 src dst (fun r j => X (ix2 r j)) (fun j q => W1a (ix2 j q))
          (fun j => B1 (ix2 (0 : Fin 1) j)) (fun j q => W2a (ix2 j q))) (fun j => B2 (ix2 (0 : Fin 1) j)) r j := fun j => by
    unfold comb combK aggK
    rw [hD, hA2, h1, Finset.sum_congr rfl fun k _ => h1 (rowOf src k) j]
  show softmaxRow (fun q => matRow (comb (stage1 (stage0 X W1a D) A1 D B1 W2a) A2 D B2 r) (fun j q => Woa (ix2 j q)) q
      + Bo (ix2 (0 : Fin 1) q)) q = _
  rw [show comb (stage1 (stage0 X W1a D) A1 D B1 W2a) A2 D B2 r = _ from funext hc2]
  rfl

end

end Cert.Gcn

end
-- ==== Proof.PreFinite.lean ====
/-
  What the precondition says of the float arguments: every entry is a real number.

  The precondition is the conjunction, over the seven float arguments, of "every entry has absolute value below
  plus infinity". An extended real whose absolute value is below plus infinity is neither infinity, so it is a real.
-/
import proofs.«108780_j12859132084330_2_alg».proof.Pre_finite_inputs
import proofs.«108780_j12859132084330_2_alg».proof.Proof.Gen.Pre_finite_inputs
import proofs.«108780_j12859132084330_2_alg».proof.Proof.Algebra
import Idealize.ShloMosaic.Lib.ReduceAll
import Idealize.ShloMosaic.PureOps.Ideal.Laws

noncomputable section

namespace Cert.Gcn

open Idealize.ShloMosaic Idealize.ShloMosaic.ValueIdx

instance subsingleton_idx0 : Subsingleton (⟨0, ![]⟩ : Shape).Idx := ⟨fun _ _ => funext fun d => d.elim0⟩

/-- An extended real whose absolute value is below plus infinity is a real. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  rw [Ideal.hostAbsf_def, Ideal.absf_def, Ideal.cmpf_def, Ideal.ofBits_def, htop] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  induction x using EReal.rec with
  | bot => exact absurd hlt (by simp)
  | coe a => exact ⟨a, rfl⟩
  | top => exact absurd hlt (by simp)

/-- Under the precondition the node features, both layers' weights and the first bias are real, entry by entry. -/
theorem real_of_pre (a0 : FVec Ideal Cert.Pre_finite_inputs.S100000x512 .f32) (a1 : IVec Cert.Pre_finite_inputs.S2x1600000 32)
    (a2 : FVec Ideal Cert.Pre_finite_inputs.S512x64 .f32) (a3 : FVec Ideal Cert.Pre_finite_inputs.S64 .f32)
    (a4 : FVec Ideal Cert.Pre_finite_inputs.S64x64 .f32) (a5 : FVec Ideal Cert.Pre_finite_inputs.S64 .f32)
    (a6 : FVec Ideal Cert.Pre_finite_inputs.S64x40 .f32) (a7 : FVec Ideal Cert.Pre_finite_inputs.S40 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => isReal_of_abs_lt _ (Host.reduce_andi_all _ _ _ _ _ h3 i),
    fun i => isReal_of_abs_lt _ (Host.reduce_andi_all _ _ _ _ _ h7 i),
    fun i => isReal_of_abs_lt _ (Host.reduce_andi_all _ _ _ _ _ h12 i),
    fun i => isReal_of_abs_lt _ (Host.reduce_andi_all _ _ _ _ _ h17 i)⟩

end Cert.Gcn

end
-- ==== Proof.KRun.lean ====
/-
  The idealized kernel's run with its result named, and what every region's operand arrays hold when the region
  is entered, read back to @main's arguments.

  @main is three pipelined regions (a grid of 20 points, blocks of 5000 rows) among three stretches of host
  operations. The buffer contents at the six segment boundaries are a fold from the launch memory: a stretch of
  host operations rewrites the buffers it writes and leaves the rest; a region leaves in each of its arrays what
  its write-backs fold to and every other buffer as entered. Here: (1) the run, whose final state holds in the
  result's buffer the last boundary's contents; (2) each region's output array is the fold of that region's
  write-backs; (3) each region's operand arrays at its entry are the host operations' terms over the launch
  contents of @main's arguments and the earlier regions' output arrays. Array-level facts only: nothing is read
  at an index here.
-/
import proofs.«108780_j12859132084330_2_alg».proof.Proof.Gen.KernelIdeal.Frame
import Idealize.ShloMosaic.Lib.StableHlo.Run

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## (1) The run: the result's buffer holds the last boundary's contents, the arguments are as launched -/

-- the launch theorem's implicit arguments are found by unifying its conclusion with this one, which takes unfolding
-- plain definitions in a metavariable's type
set_option backward.isDefEq.respectTransparency.types false in
/-- At the compiled mesh, from any memory with zero counters, every weakly fair execution of @main on the
    TensorCores terminates, nothing faulting, and every final state has in the result's buffer the contents the
    fold through @main's six segments computes (`W6`), and the eight argument arrays as launched. -/
theorem run : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- info: 'Cert.Gcn.KRun.run' depends on axioms: [propext, Classical.choice, Quot.sound] -/
#guard_msgs in #print axioms run

/-! ## (2) Each region's output array is the fold of its write-backs -/

/-- Region 0's output array (the scaled first-layer product, f32[100000, 64]) as its write-backs leave it. -/
def H1 (c : Dev nD) : Buf (Elt F) ((c : Thread nD τ).loc main_v12) := (dat0 (V1 m ρ) c).arrAt 3 cfg0.N
/-- Region 1's output array (f32[100000, 64]) as its write-backs leave it. -/
def H2 (c : Dev nD) : Buf (Elt F) ((c : Thread nD τ).loc main_v24) := (dat1 (V3 m ρ) c).arrAt 5 cfg1.N
/-- Region 2's output array (the result, f32[100000, 40]) as its write-backs leave it. -/
def H3 (c : Dev nD) : Buf (Elt F) ((c : Thread nD τ).loc main_v37) := (dat2 (V5 m ρ) c).arrAt 6 cfg2.N

theorem W2_v12 (c : Dev nD) : W2 m ρ c (Proc.devRef .tc main_v12) = (dat0 (V1 m ρ) c).arrAt 3 cfg0.N := W2_arr m ρ c 3
theorem W4_v24 (c : Dev nD) : W4 m ρ c (Proc.devRef .tc main_v24) = (dat1 (V3 m ρ) c).arrAt 5 cfg1.N := W4_arr m ρ c 5
theorem W6_v37 (c : Dev nD) : W6 m ρ c (Proc.devRef .tc main_v37) = (dat2 (V5 m ρ) c).arrAt 6 cfg2.N := W6_arr m ρ c 6

/-! ## (3) Each region's operand arrays at its entry

The index columns and the scale column, as the host operations compute them from the edge-index argument
(`ei` : i32[2, 1600000], row 0 the source nodes, row 1 the destination nodes). -/

section Terms

/-- Row 0 of the edge index (the source nodes) as a vector: the slice [0:1, :] reshaped to i32[1600000]. -/
def srcVec (ei : Vec F S2x1600000 .i32) : Vec F S1600000 .i32 :=
  shapeCast S1600000 (extractStridedSlice S1x1600000 ![0, 0] ei slices_S2x1600000_S1x1600000_0_0) shapeCasts_S1x1600000_S1600000
/-- Row 1 of the edge index (the destination nodes) as a vector: the slice [1:2, :] reshaped to i32[1600000]. -/
def dstVec (ei : Vec F S2x1600000 .i32) : Vec F S1600000 .i32 :=
  shapeCast S1600000 (extractStridedSlice S1x1600000 ![1, 0] ei slices_S2x1600000_S1x1600000_1_0) shapeCasts_S1x1600000_S1600000
/-- The destination column i32[1600000, 1]: the index operand of every scatter-add. -/
def dstColTerm (ei : Vec F S2x1600000 .i32) : Vec F S1600000x1 .i32 :=
  broadcastInDim S1600000x1 ![0] bcast_S1600000_S1600000x1_0 (dstVec ei)
/-- The wrapped source column i32[1600000, 1]: a negative source index has the node count 100000 added, the others
    are kept; the index operand of both row gathers. -/
def srcColTerm (ei : Vec F S2x1600000 .i32) : Vec F S1600000x1 .i32 :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32)))
      (srcVec ei))
/-- The scale column f32[100000, 1]: the reciprocal square root of one plus the number of edges landing on the node
    (a scatter-add of ones at the destination column into zeros, plus one, rsqrt, reshaped to a column). -/
def disColTerm (ei : Vec F S2x1600000 .i32) : Vec F S100000x1 .f32 :=
  shapeCast S100000x1
    (Host.rsqrt (addf
      (Host.scatterAdd scatter_S100000_S1600000x1_S1600000_n_0_0_1
        (broadcastInDim S100000 ![] bcast_S_S100000 (constant (F := F) S_ .f32 0x00000000#32))
        (dstColTerm ei)
        (broadcastInDim S1600000 ![] bcast_S_S1600000 (constant (F := F) S_ .f32 0x3F800000#32)))
      (broadcastInDim S100000 ![] bcast_S_S100000 (constant (F := F) S_ .f32 0x3F800000#32))))
    shapeCasts_S100000_S100000x1
/-- One aggregation step on the host: the rows of `h` (f32[100000, 64]) gathered at the wrapped source column
    (f32[1600000, 64]) and scatter-added at the destination column into zeros (f32[100000, 64]). -/
def aggTerm (ei : Vec F S2x1600000 .i32) (h : Vec F S100000x64 .f32) : Vec F S100000x64 .f32 :=
  Host.scatterAdd scatter_S100000x64_S1600000x1_S1600000x64_1_0_0_1
    (broadcastInDim S100000x64 ![] bcast_S_S100000x64 (constant (F := F) S_ .f32 0x00000000#32))
    (dstColTerm ei)
    (Host.gather gather_S100000x64_S1600000x1_S1600000x64_1_0_n_n_0_1_164 h (srcColTerm ei))

end Terms

/-! ### What the first stretch of host operations leaves (region 0's entry) -/

/-- The source vector after the first stretch. -/
theorem W1_v1 (c : Dev nD) : W1 m ρ c (Proc.devRef .tc main_v1) = srcVec (m ((c : Thread nD τ).loc main_arg1)) := by
  show StableHlo.after hostOps0 (W0 m ρ c) (Proc.devRef .tc main_v1) = _
  dsimp only [hostOps0]
  after_results
  rfl
/-- The destination vector after the first stretch. -/
theorem W1_v3 (c : Dev nD) : W1 m ρ c (Proc.devRef .tc main_v3) = dstVec (m ((c : Thread nD τ).loc main_arg1)) := by
  show StableHlo.after hostOps0 (W0 m ρ c) (Proc.devRef .tc main_v3) = _
  dsimp only [hostOps0]
  after_results
  rfl
/-- The scale column after the first stretch. -/
theorem W1_v11 (c : Dev nD) : W1 m ρ c (Proc.devRef .tc main_v11) = disColTerm (m ((c : Thread nD τ).loc main_arg1)) := by
  show StableHlo.after hostOps0 (W0 m ρ c) (Proc.devRef .tc main_v11) = _
  dsimp only [hostOps0]
  after_results
  rfl

/-- Region 0, operand 0 (the node features, f32[100000, 512]): the first argument as launched. -/
theorem V1_w0 (c : Dev nD) : V1 m ρ c (Pipeline.arrRef spec0 0) = m ((c : Thread nD τ).loc main_arg0) := by
  show StableHlo.after hostOps0 (W0 m ρ c) (Proc.devRef .tc main_arg0) = _
  dsimp only [hostOps0]
  after_results
/-- Region 0, operand 1 (the first layer's weights, f32[512, 64]): the third argument as launched. -/
theorem V1_w1 (c : Dev nD) : V1 m ρ c (Pipeline.arrRef spec0 1) = m ((c : Thread nD τ).loc main_arg2) := by
  show StableHlo.after hostOps0 (W0 m ρ c) (Proc.devRef .tc main_arg2) = _
  dsimp only [hostOps0]
  after_results
/-- Region 0, operand 2 (f32[100000, 1]): the scale column of the edge-index argument. -/
theorem V1_w2 (c : Dev nD) : V1 m ρ c (Pipeline.arrRef spec0 2) = disColTerm (m ((c : Thread nD τ).loc main_arg1)) :=
  W1_v11 m ρ c

/-! ### What region 0 and the second stretch leave (region 1's entry)

Region 0 writes its output array only; the second stretch writes neither the index vectors nor the scale column. -/

theorem W2_v1 (c : Dev nD) : W2 m ρ c (Proc.devRef .tc main_v1) = srcVec (m ((c : Thread nD τ).loc main_arg1)) :=
  (W2_of_ne m ρ c main_v1 (by decide)).trans (W1_v1 m ρ c)
theorem W2_v3 (c : Dev nD) : W2 m ρ c (Proc.devRef .tc main_v3) = dstVec (m ((c : Thread nD τ).loc main_arg1)) :=
  (W2_of_ne m ρ c main_v3 (by decide)).trans (W1_v3 m ρ c)
theorem W2_v11 (c : Dev nD) : W2 m ρ c (Proc.devRef .tc main_v11) = disColTerm (m ((c : Thread nD τ).loc main_arg1)) :=
  (W2_arr m ρ c 2).trans (((dat0 (V1 m ρ) c).arrAt_in 2 rfl _).trans ((A_eq0 (V1 m ρ) c 2).trans (V1_w2 m ρ c)))

theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
theorem W2_arg3 (c : Dev nD) : W2 m ρ c (Proc.devRef .tc main_arg3) = m ((c : Thread nD τ).loc main_arg3) :=
  (W2_of_ne m ρ c main_arg3 (by decide)).trans (W1_arg3 m ρ c)
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
theorem W2_arg4 (c : Dev nD) : W2 m ρ c (Proc.devRef .tc main_arg4) = m ((c : Thread nD τ).loc main_arg4) :=
  (W2_of_ne m ρ c main_arg4 (by decide)).trans (W1_arg4 m ρ c)
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
theorem W2_arg5 (c : Dev nD) : W2 m ρ c (Proc.devRef .tc main_arg5) = m ((c : Thread nD τ).loc main_arg5) :=
  (W2_of_ne m ρ c main_arg5 (by decide)).trans (W1_arg5 m ρ c)
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
theorem W2_arg6 (c : Dev nD) : W2 m ρ c (Proc.devRef .tc main_arg6) = m ((c : Thread nD τ).loc main_arg6) :=
  (W2_of_ne m ρ c main_arg6 (by decide)).trans (W1_arg6 m ρ c)
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results
theorem W2_arg7 (c : Dev nD) : W2 m ρ c (Proc.devRef .tc main_arg7) = m ((c : Thread nD τ).loc main_arg7) :=
  (W2_of_ne m ρ c main_arg7 (by decide)).trans (W1_arg7 m ρ c)

/-- Region 1, operand 0 (f32[100000, 64]): region 0's output array. -/
theorem V3_w0 (c : Dev nD) : V3 m ρ c (Pipeline.arrRef spec1 0) = H1 m ρ c := by
  show StableHlo.after hostOps1 (W2 m ρ c) (Proc.devRef .tc main_v12) = _
  dsimp only [hostOps1]
  after_results
  exact W2_v12 m ρ c
/-- Region 1, operand 1 (f32[100000, 64]): region 0's output array aggregated along the edges. -/
theorem V3_w1 (c : Dev nD) : V3 m ρ c (Pipeline.arrRef spec1 1) = aggTerm (m ((c : Thread nD τ).loc main_arg1)) (H1 m ρ c) := by
  show StableHlo.after hostOps1 (W2 m ρ c) (Proc.devRef .tc main_v22) = _
  dsimp only [hostOps1]
  after_results
  rw [W2_v1, W2_v3, W2_v12]
  rfl
/-- Region 1, operand 2 (f32[100000, 1]): the scale column. -/
theorem V3_w2 (c : Dev nD) : V3 m ρ c (Pipeline.arrRef spec1 2) = disColTerm (m ((c : Thread nD τ).loc main_arg1)) := by
  show StableHlo.after hostOps1 (W2 m ρ c) (Proc.devRef .tc main_v11) = _
  dsimp only [hostOps1]
  after_results
  exact W2_v11 m ρ c
/-- Region 1, operand 3 (f32[1, 64]): the fourth argument (the first layer's bias) as a row. -/
theorem V3_w3 (c : Dev nD) : V3 m ρ c (Pipeline.arrRef spec1 3)
    = shapeCast S1x64 (m ((c : Thread nD τ).loc main_arg3) : Vec F S64 .f32) shapeCasts_S64_S1x64 := by
  show StableHlo.after hostOps1 (W2 m ρ c) (Proc.devRef .tc main_v23) = _
  dsimp only [hostOps1]
  after_results
  rw [W2_arg3]
  rfl
/-- Region 1, operand 4 (f32[64, 64]): the fifth argument (the second layer's weights) as launched. -/
theorem V3_w4 (c : Dev nD) : V3 m ρ c (Pipeline.arrRef spec1 4) = m ((c : Thread nD τ).loc main_arg4) := by
  show StableHlo.after hostOps1 (W2 m ρ c) (Proc.devRef .tc main_arg4) = _
  dsimp only [hostOps1]
  after_results
  exact W2_arg4 m ρ c

/-! ### What region 1 and the third stretch leave (region 2's entry) -/

theorem W3_v1 (c : Dev nD) : W3 m ρ c (Proc.devRef .tc main_v1) = srcVec (m ((c : Thread nD τ).loc main_arg1)) := by
  show StableHlo.after hostOps1 (W2 m ρ c) (Proc.devRef .tc main_v1) = _
  dsimp only [hostOps1]
  after_results
  exact W2_v1 m ρ c
theorem W3_v3 (c : Dev nD) : W3 m ρ c (Proc.devRef .tc main_v3) = dstVec (m ((c : Thread nD τ).loc main_arg1)) := by
  show StableHlo.after hostOps1 (W2 m ρ c) (Proc.devRef .tc main_v3) = _
  dsimp only [hostOps1]
  after_results
  exact W2_v3 m ρ c
theorem W4_v1 (c : Dev nD) : W4 m ρ c (Proc.devRef .tc main_v1) = srcVec (m ((c : Thread nD τ).loc main_arg1)) :=
  (W4_of_ne m ρ c main_v1 (by decide)).trans (W3_v1 m ρ c)
theorem W4_v3 (c : Dev nD) : W4 m ρ c (Proc.devRef .tc main_v3) = dstVec (m ((c : Thread nD τ).loc main_arg1)) :=
  (W4_of_ne m ρ c main_v3 (by decide)).trans (W3_v3 m ρ c)
theorem W4_v11 (c : Dev nD) : W4 m ρ c (Proc.devRef .tc main_v11) = disColTerm (m ((c : Thread nD τ).loc main_arg1)) :=
  (W4_arr m ρ c 2).trans (((dat1 (V3 m ρ) c).arrAt_in 2 rfl _).trans ((A_eq1 (V3 m ρ) c 2).trans (V3_w2 m ρ c)))

theorem W3_arg5 (c : Dev nD) : W3 m ρ c (Proc.devRef .tc main_arg5) = m ((c : Thread nD τ).loc main_arg5) := by
  show StableHlo.after hostOps1 (W2 m ρ c) (Proc.devRef .tc main_arg5) = _
  dsimp only [hostOps1]
  after_results
  exact W2_arg5 m ρ c
theorem W4_arg5 (c : Dev nD) : W4 m ρ c (Proc.devRef .tc main_arg5) = m ((c : Thread nD τ).loc main_arg5) :=
  (W4_of_ne m ρ c main_arg5 (by decide)).trans (W3_arg5 m ρ c)
theorem W3_arg6 (c : Dev nD) : W3 m ρ c (Proc.devRef .tc main_arg6) = m ((c : Thread nD τ).loc main_arg6) := by
  show StableHlo.after hostOps1 (W2 m ρ c) (Proc.devRef .tc main_arg6) = _
  dsimp only [hostOps1]
  after_results
  exact W2_arg6 m ρ c
theorem W4_arg6 (c : Dev nD) : W4 m ρ c (Proc.devRef .tc main_arg6) = m ((c : Thread nD τ).loc main_arg6) :=
  (W4_of_ne m ρ c main_arg6 (by decide)).trans (W3_arg6 m ρ c)
theorem W3_arg7 (c : Dev nD) : W3 m ρ c (Proc.devRef .tc main_arg7) = m ((c : Thread nD τ).loc main_arg7) := by
  show StableHlo.after hostOps1 (W2 m ρ c) (Proc.devRef .tc main_arg7) = _
  dsimp only [hostOps1]
  after_results
  exact W2_arg7 m ρ c
theorem W4_arg7 (c : Dev nD) : W4 m ρ c (Proc.devRef .tc main_arg7) = m ((c : Thread nD τ).loc main_arg7) :=
  (W4_of_ne m ρ c main_arg7 (by decide)).trans (W3_arg7 m ρ c)

/-- Region 2, operand 0 (f32[100000, 64]): region 1's output array. -/
theorem V5_w0 (c : Dev nD) : V5 m ρ c (Pipeline.arrRef spec2 0) = H2 m ρ c := by
  show StableHlo.after hostOps2 (W4 m ρ c) (Proc.devRef .tc main_v24) = _
  dsimp only [hostOps2]
  after_results
  exact W4_v24 m ρ c
/-- Region 2, operand 1 (f32[100000, 64]): region 1's output array aggregated along the edges. -/
theorem V5_w1 (c : Dev nD) : V5 m ρ c (Pipeline.arrRef spec2 1) = aggTerm (m ((c : Thread nD τ).loc main_arg1)) (H2 m ρ c) := by
  show StableHlo.after hostOps2 (W4 m ρ c) (Proc.devRef .tc main_v34) = _
  dsimp only [hostOps2]
  after_results
  rw [W4_v1, W4_v3, W4_v24]
  rfl
/-- Region 2, operand 2 (f32[100000, 1]): the scale column. -/
theorem V5_w2 (c : Dev nD) : V5 m ρ c (Pipeline.arrRef spec2 2) = disColTerm (m ((c : Thread nD τ).loc main_arg1)) := by
  show StableHlo.after hostOps2 (W4 m ρ c) (Proc.devRef .tc main_v11) = _
  dsimp only [hostOps2]
  after_results
  exact W4_v11 m ρ c
/-- Region 2, operand 3 (f32[1, 64]): the sixth argument (the second layer's bias) as a row. -/
theorem V5_w3 (c : Dev nD) : V5 m ρ c (Pipeline.arrRef spec2 3)
    = shapeCast S1x64 (m ((c : Thread nD τ).loc main_arg5) : Vec F S64 .f32) shapeCasts_S64_S1x64 := by
  show StableHlo.after hostOps2 (W4 m ρ c) (Proc.devRef .tc main_v35) = _
  dsimp only [hostOps2]
  after_results
  rw [W4_arg5]
  rfl
/-- Region 2, operand 4 (f32[64, 40]): the seventh argument (the output layer's weights) as launched. -/
theorem V5_w4 (c : Dev nD) : V5 m ρ c (Pipeline.arrRef spec2 4) = m ((c : Thread nD τ).loc main_arg6) := by
  show StableHlo.after hostOps2 (W4 m ρ c) (Proc.devRef .tc main_arg6) = _
  dsimp only [hostOps2]
  after_results
  exact W4_arg6 m ρ c
/-- Region 2, operand 5 (f32[1, 40]): the eighth argument (the output layer's bias) as a row. -/
theorem V5_w5 (c : Dev nD) : V5 m ρ c (Pipeline.arrRef spec2 5)
    = shapeCast S1x40 (m ((c : Thread nD τ).loc main_arg7) : Vec F S40 .f32) shapeCasts_S40_S1x40 := by
  show StableHlo.after hostOps2 (W4 m ρ c) (Proc.devRef .tc main_v36) = _
  dsimp only [hostOps2]
  after_results
  rw [W4_arg7]
  rfl

end Cert.Gcn.KRun

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.HostReads.lean ====
/-
  The host operations between the dense stages, read at an index on the extended reals: the scale column (a scatter-add of
  ones along the destinations, plus one, inverse square root, cast to a column), an edge aggregation (a row gather
  along the sources followed by a row scatter-add along the destinations, from zero), and a vector cast to a row.
-/
import proofs.«108780_j12859132084330_2_alg».proof.Proof.Spec
import proofs.«108780_j12859132084330_2_alg».proof.Proof.LibLayoutRead
import Idealize.ShloMosaic.PureOps.Ideal.Laws
import Idealize.ShloMosaic.Lib.Pipeline.Value

noncomputable section

open scoped BigOperators

namespace Cert.Gcn

open Idealize.ShloMosaic Idealize.ShloMosaic.ValueIdx Cert.GatherRows Cert.ScatterAddRead Cert.ScatterRead

/-- The f32 word of 1.0 is the extended real 1. -/
theorem ofBits_one_f32 : Ideal.ofBits .f32 0x3F800000#32 = 1 := by
  simp [Ideal.ofBits, Ideal.ieee, -EReal.coe_mul]; norm_num

/-- A vector [n] cast to the row [1, n] reads, at (u, j), the vector at j. -/
theorem cast_row {α : Type} {n : ℕ} (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu]; omega)

/-- THE SCALES: the inverse square root of (zeros scatter-added with ones along the destinations, plus ones) at row
    `r` is the scale of `r`. -/
theorem scale_apply (ds : ScatterDims ⟨1, ![N]⟩ ⟨2, ![E, 1]⟩ ⟨1, ![E]⟩) (wf) (hds : ds = vecDims N E wf)
    (Z O2 : FVec Ideal ⟨1, ![N]⟩ .f32) (O1 : FVec Ideal ⟨1, ![E]⟩ .f32)
    (hZ : ∀ i, Z i = (0 : EReal)) (hO1 : ∀ i, O1 i = (1 : EReal)) (hO2 : ∀ i, O2 i = (1 : EReal))
    (dst : IVec ⟨2, ![E, 1]⟩ 32) (r : Fin N) :
    Host.rsqrt (addf (Host.scatterAdd ds Z dst O1) O2) (ix1 r) = dis dst r := by
  subst hds
  show Ideal.rsqrt (Host.scatterAdd (vecDims N E wf) Z dst O1 (ix1 r) + O2 (ix1 r)) = Ideal.rsqrt (deg dst r)
  rw [scatterAdd_vec_apply, hZ, hO2, Finset.sum_congr rfl fun k _ => hO1 (ix1 k)]
  rfl

/-- AN AGGREGATION: zeros scatter-added, along the destinations, with the rows of `H` gathered along the sources
    holds at `(r, j)` the sum over the edges arriving at `r` of `H` at the source row, lane `j`. -/
theorem agg_apply (ds : ScatterDims ⟨2, ![N, 64]⟩ ⟨2, ![E, 1]⟩ ⟨2, ![E, 64]⟩) (wfs) (hds : ds = rowDims N E 64 wfs)
    (dg : GatherDims ⟨2, ![N, 64]⟩ ⟨2, ![E, 1]⟩ ⟨2, ![E, 64]⟩) (wfg) (hdg : dg = rowGather N E 64 wfg)
    (Z H : FVec Ideal ⟨2, ![N, 64]⟩ .f32) (hZ : ∀ i, Z i = (0 : EReal))
    (src dst : IVec ⟨2, ![E, 1]⟩ 32) (r : Fin N) (j : Fin 64) :
    Host.scatterAdd ds Z dst (Host.gather dg H src) (ix2 r j)
      = (0 : EReal) + ∑ k ∈ landing dst r.val, H (ix2 (rowOf src k) j) := by
  subst hds hdg
  rw [scatterAdd_row_apply, hZ]
  refine congrArg _ (Finset.sum_congr rfl fun k _ => ?_)
  exact gather_rows_apply (N := N) (by decide) wfg H src k j

end Cert.Gcn

end
-- ==== Proof.KCols.lean ====
/-
  The index columns, the scale column and an edge aggregation, as the host operations between the dense stages
  compute them from the edge index, read at an index on the extended reals.

  The edge index is an integer matrix [2, E]: row 0 the source nodes, row 1 the destination nodes. A row is cut out
  as [1, E], cast to a vector [E] and spread to a column [E, 1]; the source row is first wrapped (a negative entry has
  the node count added). The scale column is the inverse square root of one plus the number of edges arriving at the
  node; an aggregation gathers the operand's rows along the wrapped sources and adds them up at the destinations.
-/
import proofs.«108780_j12859132084330_2_alg».proof.Proof.KRun
import proofs.«108780_j12859132084330_2_alg».proof.Proof.Spec
import proofs.«108780_j12859132084330_2_alg».proof.Proof.HostReads
import proofs.«108780_j12859132084330_2_alg».proof.Proof.LibLayoutRead

noncomputable section

open scoped BigOperators

namespace Cert.Gcn.KCols

open Cert.KernelIdeal Cert.KernelIdeal.Gen
open Idealize.ShloMosaic Idealize.ShloMosaic.ValueIdx

/-! ## The two rows of the edge index as vectors -/

/-- A row [1, n] cast to the vector [n] reads, at j, the row at (0, j). -/
theorem cast_unrow {α : Type} {n : ℕ} (x : (⟨2, ![1, n]⟩ : Shape).Idx → α) (h : (⟨2, ![1, n]⟩ : Shape).ShapeCasts ⟨1, ![n]⟩)
    (j : Fin n) : shapeCast ⟨1, ![n]⟩ x h (ix1 j) = x (ix2 (0 : Fin 1) j) :=
  shapeCast_apply x h _ _ (by
    rw [Shape.rowMajor_val_two, Shape.rowMajor_val_one]
    show (0 : Fin 1).val * n + j.val = j.val
    simp)

/-- Row p of a two-row matrix cut out as [1, n] keeps its lane. -/
theorem slice_row {α : Type} {n : ℕ} (o : ℕ) (x : (⟨2, ![2, n]⟩ : Shape).Idx → α)
    (h : (⟨2, ![2, n]⟩ : Shape).Slices ![o, 0] ⟨2, ![1, n]⟩) (p : Fin 2) (hp : p.val = o) (u : Fin 1) (j : Fin n) :
    extractStridedSlice ⟨2, ![1, n]⟩ ![o, 0] x h (ix2 u j) = x (ix2 p j) :=
  extractStridedSlice_apply _ x h _ _ fun a => by
    match a with
    | ⟨0, _⟩ =>
      show p.val = o + u.val
      have := u.isLt; omega
    | ⟨1, _⟩ =>
      show j.val = 0 + j.val
      omega

/-- The source vector at edge k is the edge index at (0, k). -/
theorem srcVec_apply (ei : Vec Ideal S2x1600000 .i32) (k : Fin 1600000) :
    KRun.srcVec (F := Ideal) ei (ix1 k) = ei (ix2 (0 : Fin 2) k) :=
  (cast_unrow _ _ k).trans (slice_row 0 ei _ (0 : Fin 2) rfl (0 : Fin 1) k)

/-- The destination vector at edge k is the edge index at (1, k). -/
theorem dstVec_apply (ei : Vec Ideal S2x1600000 .i32) (k : Fin 1600000) :
    KRun.dstVec (F := Ideal) ei (ix1 k) = ei (ix2 (1 : Fin 2) k) :=
  (cast_unrow _ _ k).trans (slice_row 1 ei _ (1 : Fin 2) rfl (0 : Fin 1) k)

/-! ## The index columns -/

/-- The destination column the host operations compute is the destination column as stored. -/
theorem dstColTerm_eq (ei : Vec Ideal S2x1600000 .i32) : KRun.dstColTerm (F := Ideal) ei = Cert.Gcn.dstCol ei := by
  funext i
  obtain ⟨k, u, rfl⟩ : ∃ k u, i = ix2 k u := ⟨i 0, i 1, eq_ix2 i⟩
  exact (Cert.LayoutRead.bid_col _ _ k u).trans (dstVec_apply ei k)

/-- The wrapped source column the host operations compute (compare with zero, add the node count, select) is the
    wrapped source column. -/
theorem srcColTerm_eq (ei : Vec Ideal S2x1600000 .i32) : KRun.srcColTerm (F := Ideal) ei = Cert.Gcn.srcCol ei := by
  funext i
  obtain ⟨k, u, rfl⟩ : ∃ k u, i = ix2 k u := ⟨i 0, i 1, eq_ix2 i⟩
  refine (Cert.LayoutRead.bid_col _ _ k u).trans ?_
  show Scalar.select (IntOp.cmpi .slt (KRun.srcVec (F := Ideal) ei (ix1 k))
        (broadcastInDim S1600000 ![] bcast_S_S1600000 (constantI S_ 32 0#32) (ix1 k)))
      (IntOp.addi (KRun.srcVec (F := Ideal) ei (ix1 k))
        (broadcastInDim S1600000 ![] bcast_S_S1600000 (constantI S_ 32 100000#32) (ix1 k)))
      (KRun.srcVec (F := Ideal) ei (ix1 k)) = Cert.Gcn.wrapIdx (ei (ix2 (0 : Fin 2) k))
  rw [Cert.LayoutRead.bcast_scalar, Cert.LayoutRead.bcast_scalar, srcVec_apply]
  rfl

/-! ## The scale column and an aggregation at an index -/

/-- The scale column at row r is the scale of node r. -/
theorem disColTerm_apply (ei : Vec Ideal S2x1600000 .i32) (r : Fin 100000) :
    KRun.disColTerm (F := Ideal) ei (ix2 r (0 : Fin 1)) = Cert.Gcn.dis (Cert.Gcn.dstCol ei) r := by
  unfold KRun.disColTerm
  rw [dstColTerm_eq]
  refine (Cert.LayoutRead.cast_col _ _ r (0 : Fin 1)).trans ?_
  exact Cert.Gcn.scale_apply scatter_S100000_S1600000x1_S1600000_n_0_0_1 _ rfl _ _ _
    (fun i => (Cert.LayoutRead.bcast_scalar _ _ _ i).trans Ideal.ofBits_zero_f32)
    (fun i => (Cert.LayoutRead.bcast_scalar _ _ _ i).trans Cert.Gcn.ofBits_one_f32)
    (fun i => (Cert.LayoutRead.bcast_scalar _ _ _ i).trans Cert.Gcn.ofBits_one_f32)
    (Cert.Gcn.dstCol ei) r

/-- An aggregation at (r, j): the sum, over the edges arriving at r, of the operand at the source row, lane j. -/
theorem aggTerm_apply (ei : Vec Ideal S2x1600000 .i32) (h : Vec Ideal S100000x64 .f32) (r : Fin 100000) (j : Fin 64) :
    KRun.aggTerm (F := Ideal) ei h (ix2 r j)
      = (0 : EReal) + ∑ k ∈ Cert.ScatterAddRead.landing (Cert.Gcn.dstCol ei) r.val, h (ix2 (Cert.Gcn.rowOf (Cert.Gcn.srcCol ei) k) j) := by
  unfold KRun.aggTerm
  rw [dstColTerm_eq, srcColTerm_eq]
  exact Cert.Gcn.agg_apply scatter_S100000x64_S1600000x1_S1600000x64_1_0_0_1 _ rfl
    gather_S100000x64_S1600000x1_S1600000x64_1_0_n_n_0_1_164 _ rfl _ h
    (fun i => (Cert.LayoutRead.bcast_scalar _ _ _ i).trans Ideal.ofBits_zero_f32)
    (Cert.Gcn.srcCol ei) (Cert.Gcn.dstCol ei) r j

end Cert.Gcn.KCols

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayout.lean ====
/-
  Layout operations read at an index, for the shapes a row-normalising kernel meets: a column broadcast along
  the lanes, a one-element array broadcast everywhere, a vector cast to a column, and a lane sum of a matrix
  read as the sum of one row.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayout

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element array `[1, 1]` broadcast to `[a, b]` reads its element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to a column `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- The sum along the lanes of an `[a, b]` matrix of extended reals, read at row `p`: the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Cert.LibLayout

end
-- ==== Proof.Region0.lean ====
/-
  The first dense stage of the two-layer graph convolution, as one function of whole arrays.

  The stage works on 20 blocks of 5000 rows. At a block it multiplies the block of the features X (5000 x 512) by the
  whole weight matrix W (512 x 64) and scales row p of the product by the entry of row p of the column D. Row r of the
  result therefore depends on row r of X, on all of W and on entry r of D only:
      out (r, q) = (sum_j X (r, j) * W (j, q)) * D (r, 0),
  and block t of the output holds rows 5000 t .. 5000 t + 4999 of that function. The blocks tile the 100000 rows, so
  the array written by the stage is the function itself.
-/
import proofs.«108780_j12859132084330_2_alg».proof.Proof.Gen.KernelIdeal.Frame
import proofs.«108780_j12859132084330_2_alg».proof.Proof.Spec
import proofs.«108780_j12859132084330_2_alg».proof.Proof.LibDotRead
import proofs.«108780_j12859132084330_2_alg».proof.Proof.LibLayout
import Idealize.ShloMosaic.Lib.Pipeline.Value
import Idealize.ShloMosaic.Lib.ValueIdx

set_option maxRecDepth 16384

noncomputable section

open scoped BigOperators

namespace Cert.Gcn.Region0

open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-buffer access, as a constant function. -/
theorem hz : (![0, 0] : Fin 2 → Nat) = fun _ => 0 := funext fun a => by fin_cases a <;> rfl

/-! ## The block's arithmetic at an entry -/

/-- The product's dimension numbers are the plain ones: rows by contraction times contraction by columns. -/
theorem plain : Cert.DotRead.Plain (m := 5000) (n := 512) (p := 64) dot_S5000x512_S512x64_S5000x64_1_0_0_1_n_n where
  rank := rfl
  size := rfl
  lhs0 := fun i q => by
    unfold DotDims.lhsIdx
    rw [dif_neg (show ¬(0 : Fin 2) ∈ dot_S5000x512_S512x64_S5000x64_1_0_0_1_n_n.lhsBatch from List.not_mem_nil),
      dif_pos (show (0 : Fin 2) ∈ dot_S5000x512_S512x64_S5000x64_1_0_0_1_n_n.lhsNonContracting from List.mem_singleton.mpr rfl)]
    rfl
  lhs1 := fun i q => dot_S5000x512_S512x64_S5000x64_1_0_0_1_n_n.lhsIdx_val_of_single rfl i q
  rhs0 := fun i q => dot_S5000x512_S512x64_S5000x64_1_0_0_1_n_n.rhsIdx_val_of_single rfl i q
  rhs1 := fun i q => by
    unfold DotDims.rhsIdx
    rw [dif_neg (show ¬(1 : Fin 2) ∈ dot_S5000x512_S512x64_S5000x64_1_0_0_1_n_n.rhsBatch from List.not_mem_nil),
      dif_pos (show (1 : Fin 2) ∈ dot_S5000x512_S512x64_S5000x64_1_0_0_1_n_n.rhsNonContracting from List.mem_singleton.mpr rfl)]
    rfl

/-- Entry (p, q) of what a block computes: row p of the feature block times column q of the weights, scaled by the
    column's entry of row p. A change of float format is the identity on the extended reals. -/
theorem pay_apply (x0 : Vec Ideal S5000x512 .f32) (x1 : Vec Ideal S512x64 .f32) (x2 : Vec Ideal S5000x1 .f32)
    (p : Fin 5000) (q : Fin 64) :
    k0_pay1 (F := Ideal) x0 x1 x2 (ix2 p q)
      = matRow (fun j : Fin 512 => x0 (ix2 p j)) (fun (j : Fin 512) (k : Fin 64) => x1 (ix2 j k)) q * x2 (ix2 p (0 : Fin 1)) := by
  unfold k0_pay1
  refine (congrArg₂ (· * ·)
    (Cert.DotRead.matmul_zero_apply dot_S5000x512_S512x64_S5000x64_1_0_0_1_n_n plain none
      (truncf .bf16 x0 bitsLt_bf16_f32) (truncf .bf16 x1 bitsLt_bf16_f32) p q)
    ((Cert.LibLayout.broadcastTo_a1_ab_apply (shapeCast S5000x1 x2 shapeCasts_S5000x1_S5000x1) broadcasts_S5000x1_S5000x64 p q).trans
      (congrFun (shapeCast_self x2 shapeCasts_S5000x1_S5000x1) (ix2 p (0 : Fin 1))))).trans ?_
  rfl

/-- A block whose operands are rows of whole arrays computes the rows of the stage function: if row p of the feature
    block is row r of X, the weight block is W and entry p of the column block is entry r of D, entry (p, q) of the
    block's result is entry (r, q) of the stage. -/
theorem block_apply (X : (⟨2, ![N, 512]⟩ : Shape).Idx → EReal) (W : (⟨2, ![512, 64]⟩ : Shape).Idx → EReal)
    (D : (⟨2, ![N, 1]⟩ : Shape).Idx → EReal)
    (x0 : Vec Ideal S5000x512 .f32) (x1 : Vec Ideal S512x64 .f32) (x2 : Vec Ideal S5000x1 .f32)
    (p : Fin 5000) (q : Fin 64) (r : Fin N)
    (h0 : ∀ j : Fin 512, x0 (ix2 p j) = X (ix2 r j))
    (h1 : ∀ (j : Fin 512) (k : Fin 64), x1 (ix2 j k) = W (ix2 j k))
    (h2 : x2 (ix2 p (0 : Fin 1)) = D (ix2 r (0 : Fin 1))) :
    k0_pay1 (F := Ideal) x0 x1 x2 (ix2 p q) = stage0 X W D (ix2 r q) := by
  refine (pay_apply x0 x1 x2 p q).trans ?_
  show matRow (fun j : Fin 512 => x0 (ix2 p j)) (fun (j : Fin 512) (k : Fin 64) => x1 (ix2 j k)) q * x2 (ix2 p (0 : Fin 1))
    = matRow (fun j : Fin 512 => X (ix2 r j)) (fun (j : Fin 512) (k : Fin 64) => W (ix2 j k)) q * D (ix2 r (0 : Fin 1))
  rw [h2, show (fun j : Fin 512 => x0 (ix2 p j)) = fun j : Fin 512 => X (ix2 r j) from funext h0,
    show (fun (j : Fin 512) (k : Fin 64) => x1 (ix2 j k)) = fun (j : Fin 512) (k : Fin 64) => W (ix2 j k) from
      funext fun j => funext (h1 j)]

/-! ## From blocks to the array -/

section Array

variable (V : (c : Dev nD) → (b : Ref sig .tc) → Buf (Elt Ideal) ((c : Thread nD τ).loc b))

/-- The block indices over the grid: the row-blocked operands are at block (t, 0) at point t, the weights at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the stage function of the arrays as the stage finds them: rows
    5000 t .. 5000 t + 4999. -/
theorem flushed_eq (c : Dev nD) (t : Fin cfg0.N) :
    (dat0 (F := Ideal) V c).flushed 3 t
      = ((cfg0.win 3).blk t).view.read (Elt Ideal)
          (stage0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x64) hz, View.ld_unit_zero (S := S5000x1) hz]
  obtain ⟨e00, e01, e10, e11, e20, e21, e30, e31⟩ := idx_facts t
  have ht : t.val < 20 := lt_of_lt_of_eq t.isLt N_0
  funext j
  have hj0 : (j 0).val < 5000 := (j 0).isLt
  have hj1 : (j 1).val < 64 := (j 1).isLt
  have hr : t.val * 5000 + (j 0).val < N := by show _ < 100000; omega
  have ej : (cfg0.win 3).xinj (grid0.coords t) j = ix2 (⟨(j 0).val, hj0⟩ : Fin 5000) (⟨(j 1).val, hj1⟩ : Fin 64) :=
    funext fun a => by match a with | ⟨0, _⟩ => rfl | ⟨1, _⟩ => rfl
  have ei : ((cfg0.win 3).blk t).view.emb j = ix2 (⟨t.val * 5000 + (j 0).val, hr⟩ : Fin N) (⟨(j 1).val, hj1⟩ : Fin 64) :=
    funext fun a => Fin.ext (by
      match a with
      | ⟨0, _⟩ => show win0_3.index t (0 : Fin 2) * 5000 + 1 * (j 0).val = t.val * 5000 + (j 0).val; rw [e30]; omega
      | ⟨1, _⟩ => show win0_3.index t (1 : Fin 2) * 64 + 1 * (j 1).val = (j 1).val; rw [e31]; omega)
  show k0_pay1 (F := Ideal) (iblk0 V c 0 t) (iblk0 V c 1 t) (iblk0 V c 2 t) ((cfg0.win 3).xinj (grid0.coords t) j)
    = stage0 (V c (Pipeline.arrRef spec0 0)) (V c (Pipeline.arrRef spec0 1)) (V c (Pipeline.arrRef spec0 2))
        (((cfg0.win 3).blk t).view.emb j)
  rw [ej, ei]
  refine block_apply (V c (Pipeline.arrRef spec0 0)) (V c (Pipeline.arrRef spec0 1)) (V c (Pipeline.arrRef spec0 2))
    (iblk0 V c 0 t) (iblk0 V c 1 t) (iblk0 V c 2 t) ⟨(j 0).val, hj0⟩ ⟨(j 1).val, hj1⟩ ⟨t.val * 5000 + (j 0).val, hr⟩ ?_ ?_ ?_
  · intro k
    show V c (Pipeline.arrRef spec0 0) (((cfg0.win 0).blk t).view.emb (ix2 (⟨(j 0).val, hj0⟩ : Fin 5000) k)) = _
    refine congrArg (V c (Pipeline.arrRef spec0 0)) (funext fun a => Fin.ext ?_)
    match a with
    | ⟨0, _⟩ => show win0_0.index t (0 : Fin 2) * 5000 + 1 * (j 0).val = t.val * 5000 + (j 0).val; rw [e00]; omega
    | ⟨1, _⟩ => show win0_0.index t (1 : Fin 2) * 512 + 1 * k.val = k.val; rw [e01]; omega
  · intro k k'
    show V c (Pipeline.arrRef spec0 1) (((cfg0.win 1).blk t).view.emb (ix2 k k')) = _
    refine congrArg (V c (Pipeline.arrRef spec0 1)) (funext fun a => Fin.ext ?_)
    match a with
    | ⟨0, _⟩ => show win0_1.index t (0 : Fin 2) * 512 + 1 * k.val = k.val; rw [e10]; omega
    | ⟨1, _⟩ => show win0_1.index t (1 : Fin 2) * 64 + 1 * k'.val = k'.val; rw [e11]; omega
  · show V c (Pipeline.arrRef spec0 2) (((cfg0.win 2).blk t).view.emb (ix2 (⟨(j 0).val, hj0⟩ : Fin 5000) (0 : Fin 1))) = _
    refine congrArg (V c (Pipeline.arrRef spec0 2)) (funext fun a => Fin.ext ?_)
    match a with
    | ⟨0, _⟩ => show win0_2.index t (0 : Fin 2) * 5000 + 1 * (j 0).val = t.val * 5000 + (j 0).val; rw [e20]; omega
    | ⟨1, _⟩ => show win0_2.index t (1 : Fin 2) * 1 + 1 * 0 = 0; rw [e21]

/-- An entry of the output array is in point t's block iff each of its coordinates is in the block's range. -/
theorem mem_blk (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v12).slice (win0_3.rect t)).set ↔ _
  rw [View.set_slice_whole, Rect.mem_set_unit]
  exact Iff.rfl

/-- Every entry of the output array is written: row r lies in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, e30, e31⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [e31]; omega

/-- The array the first stage leaves: the stage function of the arrays as the stage finds them. -/
theorem final (c : Dev nD) :
    (dat0 (F := Ideal) V c).arrAt 3 cfg0.N
      = stage0 (V c (Pipeline.arrRef spec0 0)) (V c (Pipeline.arrRef spec0 1)) (V c (Pipeline.arrRef spec0 2)) :=
  (dat0 (F := Ideal) V c).arrAt_eq_of_cover 3
    (stage0 (V c (Pipeline.arrRef spec0 0)) (V c (Pipeline.arrRef spec0 1)) (V c (Pipeline.arrRef spec0 2)))
    (fun t _ => flushed_eq V c t) cover

end Array

end Cert.Gcn.Region0

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.Region1.lean ====
/-
  The second dense stage of the two-layer graph convolution, as one function of whole arrays.

  The stage works on 20 blocks of 5000 rows. At a block it adds the block of the aggregated neighbour rows A to the
  block of the node's own scaled features H, scales row p of the sum by the entry of row p of the column D, adds the
  bias row B, rectifies at zero,
      comb (p, j) = max (D (p, 0) * (A (p, j) + H (p, j)) + B (0, j)) 0,
  multiplies by the whole weight matrix W (64 x 64) and scales row p of the product by D (p, 0) again. Row r of the
  result depends on row r of H, A and D and on all of B and W only:
      out (r, q) = (sum_j comb (r, j) * W (j, q)) * D (r, 0),
  and block t of the output holds rows 5000 t .. 5000 t + 4999 of that function. The blocks tile the 100000 rows, so
  the array written by the stage is the function itself.
-/
import proofs.«108780_j12859132084330_2_alg».proof.Proof.Gen.KernelIdeal.Frame
import proofs.«108780_j12859132084330_2_alg».proof.Proof.Spec
import proofs.«108780_j12859132084330_2_alg».proof.Proof.LibDotRead
import proofs.«108780_j12859132084330_2_alg».proof.Proof.LibLayout
import proofs.«108780_j12859132084330_2_alg».proof.Proof.LibRecip
import Idealize.ShloMosaic.Lib.Pipeline.Value
import Idealize.ShloMosaic.Lib.ValueIdx

set_option maxRecDepth 16384

noncomputable section

open scoped BigOperators

namespace Cert.Gcn.Region1

open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-buffer access, as a constant function. -/
theorem hz : (![0, 0] : Fin 2 → Nat) = fun _ => 0 := funext fun a => by fin_cases a <;> rfl

/-! ## The block's arithmetic at an entry -/

/-- The product's dimension numbers are the plain ones: rows by contraction times contraction by columns. -/
theorem plain : Cert.DotRead.Plain (m := 5000) (n := 64) (p := 64) dot_S5000x64_S64x64_S5000x64_1_0_0_1_n_n where
  rank := rfl
  size := rfl
  lhs0 := fun i q => by
    unfold DotDims.lhsIdx
    rw [dif_neg (show ¬(0 : Fin 2) ∈ dot_S5000x64_S64x64_S5000x64_1_0_0_1_n_n.lhsBatch from List.not_mem_nil),
      dif_pos (show (0 : Fin 2) ∈ dot_S5000x64_S64x64_S5000x64_1_0_0_1_n_n.lhsNonContracting from List.mem_singleton.mpr rfl)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin 2) ∈ dot_S5000x64_S64x64_S5000x64_1_0_0_1_n_n.rhsBatch from List.not_mem_nil),
      dif_pos (show (1 : Fin 2) ∈ dot_S5000x64_S64x64_S5000x64_1_0_0_1_n_n.rhsNonContracting from List.mem_singleton.mpr rfl)]
    rfl

/-- The combined and rectified features of a block, the left operand of its product: the two feature blocks added,
    scaled by the column spread along the lanes, the bias row spread over the rows added, the maximum with zero. -/
def feat (v0 v2 : Vec Ideal S5000x64 .f32) (v5 : Vec Ideal S5000x1 .f32) (v9 : Vec Ideal S1x64 .f32) :
    FVec Ideal S5000x64 .f32 :=
  maximumf
    (addf
      (mulf (broadcastTo S5000x64 (shapeCast S5000x1 v5 shapeCasts_S5000x1_S5000x1) broadcasts_S5000x1_S5000x64)
        (addf (shapeCast S5000x64 v0 shapeCasts_S5000x64_S5000x64) (shapeCast S5000x64 v2 shapeCasts_S5000x64_S5000x64)))
      (broadcastTo S5000x64 (shapeCast S1x64 v9 shapeCasts_S1x64_S1x64) broadcasts_S1x64_S5000x64))
    (broadcast S5000x64 (Scalar.ofBits (F := Ideal) .f32 0x00000000#32))

/-- Entry (p, j) of the combined features: the scale of row p times the sum of the two feature entries, plus the bias
    of lane j, rectified. The zero word denotes zero. -/
theorem feat_apply (v0 v2 : Vec Ideal S5000x64 .f32) (v5 : Vec Ideal S5000x1 .f32) (v9 : Vec Ideal S1x64 .f32)
    (p : Fin 5000) (j : Fin 64) :
    feat v0 v2 v5 v9 (ix2 p j)
      = max (v5 (ix2 p (0 : Fin 1)) * (v0 (ix2 p j) + v2 (ix2 p j)) + v9 (ix2 (0 : Fin 1) j)) 0 := by
  show max
      (broadcastTo S5000x64 (shapeCast S5000x1 v5 shapeCasts_S5000x1_S5000x1) broadcasts_S5000x1_S5000x64 (ix2 p j)
          * (shapeCast S5000x64 v0 shapeCasts_S5000x64_S5000x64 (ix2 p j) + shapeCast S5000x64 v2 shapeCasts_S5000x64_S5000x64 (ix2 p j))
        + broadcastTo S5000x64 (shapeCast S1x64 v9 shapeCasts_S1x64_S1x64) broadcasts_S1x64_S5000x64 (ix2 p j))
      (Ideal.ofBits .f32 0x00000000#32) = _
  rw [Cert.LibLayout.broadcastTo_a1_ab_apply, Cert.LibRecip.bcast_row, shapeCast_self, shapeCast_self, shapeCast_self,
    shapeCast_self, Ideal.ofBits_zero_f32]

/-- Entry (p, q) of what a block computes: row p of the combined features times column q of the weights, scaled by the
    column's entry of row p. A change of float format is the identity on the extended reals. -/
theorem pay_apply (v0 v2 : Vec Ideal S5000x64 .f32) (v5 : Vec Ideal S5000x1 .f32) (v9 : Vec Ideal S1x64 .f32)
    (v16 : Vec Ideal S64x64 .f32) (v19 : Vec Ideal S5000x1 .f32) (p : Fin 5000) (q : Fin 64) :
    k1_pay1 (F := Ideal) v0 v2 v5 v9 v16 v19 (ix2 p q)
      = matRow (fun j : Fin 64 => max (v5 (ix2 p (0 : Fin 1)) * (v0 (ix2 p j) + v2 (ix2 p j)) + v9 (ix2 (0 : Fin 1) j)) 0)
          (fun (j : Fin 64) (k : Fin 64) => v16 (ix2 j k)) q * v19 (ix2 p (0 : Fin 1)) := by
  unfold k1_pay1
  refine (congrArg₂ (· * ·)
    (Cert.DotRead.matmul_zero_apply dot_S5000x64_S64x64_S5000x64_1_0_0_1_n_n plain none
      (truncf .bf16 (feat v0 v2 v5 v9) bitsLt_bf16_f32) (truncf .bf16 v16 bitsLt_bf16_f32) p q)
    ((Cert.LibLayout.broadcastTo_a1_ab_apply (shapeCast S5000x1 v19 shapeCasts_S5000x1_S5000x1) broadcasts_S5000x1_S5000x64 p q).trans
      (congrFun (shapeCast_self v19 shapeCasts_S5000x1_S5000x1) (ix2 p (0 : Fin 1))))).trans ?_
  show (∑ j : Fin 64, feat v0 v2 v5 v9 (ix2 p j) * v16 (ix2 j q)) * v19 (ix2 p (0 : Fin 1))
    = (∑ j : Fin 64, max (v5 (ix2 p (0 : Fin 1)) * (v0 (ix2 p j) + v2 (ix2 p j)) + v9 (ix2 (0 : Fin 1) j)) 0 * v16 (ix2 j q))
        * v19 (ix2 p (0 : Fin 1))
  exact congrArg (· * v19 (ix2 p (0 : Fin 1)))
    (Finset.sum_congr rfl fun j _ => congrArg (· * v16 (ix2 j q)) (feat_apply v0 v2 v5 v9 p j))

/-- A block whose operands are rows of whole arrays computes the rows of the stage function: if row p of the two
    feature blocks is row r of A and of H, entry p of the column block is entry r of D, and the bias and weight blocks
    are B and W, entry (p, q) of the block's result is entry (r, q) of the stage. -/
theorem block_apply (H A : (⟨2, ![N, 64]⟩ : Shape).Idx → EReal) (D : (⟨2, ![N, 1]⟩ : Shape).Idx → EReal)
    (B : (⟨2, ![1, 64]⟩ : Shape).Idx → EReal) (W : (⟨2, ![64, 64]⟩ : Shape).Idx → EReal)
    (v0 v2 : Vec Ideal S5000x64 .f32) (v5 : Vec Ideal S5000x1 .f32) (v9 : Vec Ideal S1x64 .f32)
    (v16 : Vec Ideal S64x64 .f32) (p : Fin 5000) (q : Fin 64) (r : Fin N)
    (h0 : ∀ j : Fin 64, v0 (ix2 p j) = A (ix2 r j))
    (h2 : ∀ j : Fin 64, v2 (ix2 p j) = H (ix2 r j))
    (h5 : v5 (ix2 p (0 : Fin 1)) = D (ix2 r (0 : Fin 1)))
    (h9 : ∀ j : Fin 64, v9 (ix2 (0 : Fin 1) j) = B (ix2 (0 : Fin 1) j))
    (h16 : ∀ (j : Fin 64) (k : Fin 64), v16 (ix2 j k) = W (ix2 j k)) :
    k1_pay1 (F := Ideal) v0 v2 v5 v9 v16 v5 (ix2 p q) = stage1 H A D B W (ix2 r q) := by
  refine (pay_apply v0 v2 v5 v9 v16 v5 p q).trans ?_
  show matRow (fun j : Fin 64 => max (v5 (ix2 p (0 : Fin 1)) * (v0 (ix2 p j) + v2 (ix2 p j)) + v9 (ix2 (0 : Fin 1) j)) 0)
      (fun (j : Fin 64) (k : Fin 64) => v16 (ix2 j k)) q * v5 (ix2 p (0 : Fin 1))
    = matRow (fun j : Fin 64 => max (D (ix2 r (0 : Fin 1)) * (A (ix2 r j) + H (ix2 r j)) + B (ix2 (0 : Fin 1) j)) 0)
      (fun (j : Fin 64) (k : Fin 64) => W (ix2 j k)) q * D (ix2 r (0 : Fin 1))
  rw [h5, show (fun j : Fin 64 => max (D (ix2 r (0 : Fin 1)) * (v0 (ix2 p j) + v2 (ix2 p j)) + v9 (ix2 (0 : Fin 1) j)) 0)
        = fun j : Fin 64 => max (D (ix2 r (0 : Fin 1)) * (A (ix2 r j) + H (ix2 r j)) + B (ix2 (0 : Fin 1) j)) 0 from
      funext fun j => by rw [h0 j, h2 j, h9 j],
    show (fun (j : Fin 64) (k : Fin 64) => v16 (ix2 j k)) = fun (j : Fin 64) (k : Fin 64) => W (ix2 j k) from
      funext fun j => funext (h16 j)]

/-! ## From blocks to the array -/

section Array

variable (V : (c : Dev nD) → (b : Ref sig .tc) → Buf (Elt Ideal) ((c : Thread nD τ).loc b))

/-- The block indices over the grid: the row-blocked operands are at block (t, 0) at point t, the bias row and the
    weights at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the stage function of the arrays as the stage finds them: rows
    5000 t .. 5000 t + 4999. -/
theorem flushed_eq (c : Dev nD) (t : Fin cfg1.N) :
    (dat1 (F := Ideal) V c).flushed 5 t
      = ((cfg1.win 5).blk t).view.read (Elt Ideal)
          (stage1 (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x64) hz]
  obtain ⟨e00, e01, e10, e11, e20, e21, e30, e31, e40, e41, e50, e51⟩ := idx_facts t
  have ht : t.val < 20 := lt_of_lt_of_eq t.isLt N_1
  funext j
  have hj0 : (j 0).val < 5000 := (j 0).isLt
  have hj1 : (j 1).val < 64 := (j 1).isLt
  have hr : t.val * 5000 + (j 0).val < N := by show _ < 100000; omega
  have ej : (cfg1.win 5).xinj (grid1.coords t) j = ix2 (⟨(j 0).val, hj0⟩ : Fin 5000) (⟨(j 1).val, hj1⟩ : Fin 64) :=
    funext fun a => by match a with | ⟨0, _⟩ => rfl | ⟨1, _⟩ => rfl
  have ei : ((cfg1.win 5).blk t).view.emb j = ix2 (⟨t.val * 5000 + (j 0).val, hr⟩ : Fin N) (⟨(j 1).val, hj1⟩ : Fin 64) :=
    funext fun a => Fin.ext (by
      match a with
      | ⟨0, _⟩ => show win1_5.index t (0 : Fin 2) * 5000 + 1 * (j 0).val = t.val * 5000 + (j 0).val; rw [e50]; omega
      | ⟨1, _⟩ => show win1_5.index t (1 : Fin 2) * 64 + 1 * (j 1).val = (j 1).val; rw [e51]; omega)
  show k1_pay1 (F := Ideal) (iblk1 V c 1 t) (iblk1 V c 0 t) (iblk1 V c 2 t) (iblk1 V c 3 t) (iblk1 V c 4 t) (iblk1 V c 2 t)
      ((cfg1.win 5).xinj (grid1.coords t) j)
    = stage1 (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  rw [ej, ei]
  refine block_apply (V c (Pipeline.arrRef spec1 0)) (V c (Pipeline.arrRef spec1 1)) (V c (Pipeline.arrRef spec1 2))
    (V c (Pipeline.arrRef spec1 3)) (V c (Pipeline.arrRef spec1 4))
    (iblk1 V c 1 t) (iblk1 V c 0 t) (iblk1 V c 2 t) (iblk1 V c 3 t) (iblk1 V c 4 t)
    ⟨(j 0).val, hj0⟩ ⟨(j 1).val, hj1⟩ ⟨t.val * 5000 + (j 0).val, hr⟩ ?_ ?_ ?_ ?_ ?_
  · intro k
    show V c (Pipeline.arrRef spec1 1) (((cfg1.win 1).blk t).view.emb (ix2 (⟨(j 0).val, hj0⟩ : Fin 5000) k)) = _
    refine congrArg (V c (Pipeline.arrRef spec1 1)) (funext fun a => Fin.ext ?_)
    match a with
    | ⟨0, _⟩ => show win1_1.index t (0 : Fin 2) * 5000 + 1 * (j 0).val = t.val * 5000 + (j 0).val; rw [e10]; omega
    | ⟨1, _⟩ => show win1_1.index t (1 : Fin 2) * 64 + 1 * k.val = k.val; rw [e11]; omega
  · intro k
    show V c (Pipeline.arrRef spec1 0) (((cfg1.win 0).blk t).view.emb (ix2 (⟨(j 0).val, hj0⟩ : Fin 5000) k)) = _
    refine congrArg (V c (Pipeline.arrRef spec1 0)) (funext fun a => Fin.ext ?_)
    match a with
    | ⟨0, _⟩ => show win1_0.index t (0 : Fin 2) * 5000 + 1 * (j 0).val = t.val * 5000 + (j 0).val; rw [e00]; omega
    | ⟨1, _⟩ => show win1_0.index t (1 : Fin 2) * 64 + 1 * k.val = k.val; rw [e01]; omega
  · show V c (Pipeline.arrRef spec1 2) (((cfg1.win 2).blk t).view.emb (ix2 (⟨(j 0).val, hj0⟩ : Fin 5000) (0 : Fin 1))) = _
    refine congrArg (V c (Pipeline.arrRef spec1 2)) (funext fun a => Fin.ext ?_)
    match a with
    | ⟨0, _⟩ => show win1_2.index t (0 : Fin 2) * 5000 + 1 * (j 0).val = t.val * 5000 + (j 0).val; rw [e20]; omega
    | ⟨1, _⟩ => show win1_2.index t (1 : Fin 2) * 1 + 1 * 0 = 0; rw [e21]
  · intro k
    show V c (Pipeline.arrRef spec1 3) (((cfg1.win 3).blk t).view.emb (ix2 (0 : Fin 1) k)) = _
    refine congrArg (V c (Pipeline.arrRef spec1 3)) (funext fun a => Fin.ext ?_)
    match a with
    | ⟨0, _⟩ => show win1_3.index t (0 : Fin 2) * 1 + 1 * 0 = 0; rw [e30]
    | ⟨1, _⟩ => show win1_3.index t (1 : Fin 2) * 64 + 1 * k.val = k.val; rw [e31]; omega
  · intro k k'
    show V c (Pipeline.arrRef spec1 4) (((cfg1.win 4).blk t).view.emb (ix2 k k')) = _
    refine congrArg (V c (Pipeline.arrRef spec1 4)) (funext fun a => Fin.ext ?_)
    match a with
    | ⟨0, _⟩ => show win1_4.index t (0 : Fin 2) * 64 + 1 * k.val = k.val; rw [e40]; omega
    | ⟨1, _⟩ => show win1_4.index t (1 : Fin 2) * 64 + 1 * k'.val = k'.val; rw [e41]; omega

/-- An entry of the output array is in point t's block iff each of its coordinates is in the block's range. -/
theorem mem_blk (t : Fin cfg1.N) (i : S100000x64.Idx) :
    i ∈ ((cfg1.win 5).blk t).view.set
      ↔ ∀ a : Fin 2, win1_5.index t a * S5000x64.size a ≤ (i a).val
          ∧ (i a).val < win1_5.index t a * S5000x64.size a + S5000x64.size a := by
  show i ∈ ((View.whole main_v24).slice (win1_5.rect t)).set ↔ _
  rw [View.set_slice_whole, Rect.mem_set_unit]
  exact Iff.rfl

/-- Every entry of the output array is written: row r lies in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, e50, e51⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [e51]; omega

/-- The array the second stage leaves: the stage function of the arrays as the stage finds them. -/
theorem final (c : Dev nD) :
    (dat1 (F := Ideal) V c).arrAt 5 cfg1.N
      = stage1 (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5
    (stage1 (V c (Pipeline.arrRef spec1 0)) (V c (Pipeline.arrRef spec1 1)) (V c (Pipeline.arrRef spec1 2))
      (V c (Pipeline.arrRef spec1 3)) (V c (Pipeline.arrRef spec1 4)))
    (fun t _ => flushed_eq V c t) cover

end Array

end Cert.Gcn.Region1

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Region2.lean ====
/-
  The third dense stage, read off the blocked computation.

  The stage works on 20 blocks of 5000 rows. On one block it adds the aggregated and the own features, scales each row
  by its node's scale, adds the bias row and rectifies; multiplies by the 64 x 40 weights and adds the output bias; and
  takes the softmax of each row: the row's maximum (folded from minus infinity) is subtracted, the exponentials are
  divided by their sum. Entry (p, q) of the result depends on row p of the three row-blocked operands and on the whole
  of the three small ones, so block t of the result is block t of ONE function of the whole arrays, Cert.Gcn.stage2;
  the 20 blocks tile the 100000 rows (row r is in block r / 5000), so the result array is that function.
-/
import proofs.«108780_j12859132084330_2_alg».proof.Proof.Gen.KernelIdeal.Frame
import proofs.«108780_j12859132084330_2_alg».proof.Proof.Spec
import proofs.«108780_j12859132084330_2_alg».proof.Proof.LibDenseRows
import proofs.«108780_j12859132084330_2_alg».proof.Proof.LibLayoutRead
import Idealize.ShloMosaic.Lib.Pipeline.Value
import Idealize.ShloMosaic.Lib.ValueLayout
import Idealize.ShloMosaic.PureOps.Ideal.Laws

set_option maxRecDepth 16384

noncomputable section

open scoped BigOperators

namespace Cert.Gcn.Region2

open Cert.KernelIdeal Cert.KernelIdeal.Gen Idealize.ShloMosaic Idealize.ShloMosaic.ValueIdx Idealize.ShloMosaic.TcCoe Idealize.SL.Sem
open Idealize.ShloMosaic.Pipeline (Dat)

/-! ## The row softmax of a block -/

/-- The lane maximum of a block at row p is the maximum of that row, folded from minus infinity. -/
theorem rowmax_apply (v : FVec Ideal S5000x40 .f32) (hr : S5000x40.Reduces [1] S5000) (p : Fin 5000) :
    multiReduction .maximumf [1] S5000 v 0xFF800000#32 hr (.inl rfl) rfl (ix1 p) = rowMax (fun q' => v (ix2 p q')) := by
  refine (Ideal.multiReduction_maximumf_single v 0xFF800000#32 hr (.inl rfl) rfl (ix1 p)).trans ?_
  show (Finset.univ : Finset (Fin 40)).fold max (Ideal.ofBits .f32 0xFF800000#32) (v ∘ hr.lift (ix1 p)) = _
  unfold rowMax
  refine congrArg (fun f => (Finset.univ : Finset (Fin 40)).fold max (Ideal.ofBits .f32 0xFF800000#32) f)
    (funext fun k => congrArg v (funext fun ax => Fin.ext ?_))
  match ax with
  | ⟨0, _⟩ => rfl
  | ⟨1, _⟩ => rfl

/-- A block with each row shifted by its maximum, exponentiated, and divided by the row's sum. -/
def softmaxBlk (v : FVec Ideal S5000x40 .f32) : FVec Ideal S5000x40 .f32 :=
  divf (exp (subf v (broadcastTo S5000x40 (shapeCast S5000x1 (multiReduction .maximumf [1] S5000 v 0xFF800000#32 reduces_S5000x40_S5000 (.inl rfl) rfl) shapeCasts_S5000_S5000x1) broadcasts_S5000x1_S5000x40)))
    (broadcastTo S5000x40 (shapeCast S5000x1 (multiReduction .add [1] S5000 (exp (subf v (broadcastTo S5000x40 (shapeCast S5000x1 (multiReduction .maximumf [1] S5000 v 0xFF800000#32 reduces_S5000x40_S5000 (.inl rfl) rfl) shapeCasts_S5000_S5000x1) broadcasts_S5000x1_S5000x40))) 0x00000000#32 reduces_S5000x40_S5000 (.inl rfl) rfl) shapeCasts_S5000_S5000x1) broadcasts_S5000x1_S5000x40)

/-- The shifted, exponentiated block at (p, k). -/
theorem expShift_apply (v : FVec Ideal S5000x40 .f32) (p : Fin 5000) (k : Fin 40) :
    exp (subf v (broadcastTo S5000x40 (shapeCast S5000x1 (multiReduction .maximumf [1] S5000 v 0xFF800000#32 reduces_S5000x40_S5000 (.inl rfl) rfl) shapeCasts_S5000_S5000x1) broadcasts_S5000x1_S5000x40)) (ix2 p k)
      = Ideal.exp (v (ix2 p k) - rowMax (fun q' => v (ix2 p q'))) := by
  show Ideal.exp (v (ix2 p k) - broadcastTo S5000x40 (shapeCast S5000x1 (multiReduction .maximumf [1] S5000 v 0xFF800000#32 reduces_S5000x40_S5000 (.inl rfl) rfl) shapeCasts_S5000_S5000x1) broadcasts_S5000x1_S5000x40 (ix2 p k)) = _
  rw [Cert.LayoutRead.bcast_col, Cert.LayoutRead.cast_col, rowmax_apply]

/-- The softmax block at (p, q) is the softmax of row p at q. -/
theorem softmaxBlk_apply (v : FVec Ideal S5000x40 .f32) (p : Fin 5000) (q : Fin 40) :
    softmaxBlk v (ix2 p q) = softmaxRow (fun q' => v (ix2 p q')) q := by
  unfold softmaxBlk softmaxRow
  rw [divf_apply, expShift_apply, Cert.LayoutRead.bcast_col, Cert.LayoutRead.cast_col, Cert.LayoutRead.rowsum]
  refine congrArg _ (Finset.sum_congr rfl fun k _ => ?_)
  exact expShift_apply v p k

/-! ## The logits block -/

/-- The combined, rectified features times the weights, plus the output bias, as the body computes them on a block. -/
def logitsBlk (A H : Vec Ideal S5000x64 .f32) (D : Vec Ideal S5000x1 .f32) (B : Vec Ideal S1x64 .f32)
    (W : Vec Ideal S64x40 .f32) (Bo : Vec Ideal S1x40 .f32) : FVec Ideal S5000x40 .f32 :=
  addf (matmul dot_S5000x64_S64x40_S5000x40_1_0_0_1_n_n none
      (truncf .bf16 (maximumf (addf (mulf (broadcastTo S5000x64 (shapeCast S5000x1 D shapeCasts_S5000x1_S5000x1) broadcasts_S5000x1_S5000x64)
          (addf (shapeCast S5000x64 A shapeCasts_S5000x64_S5000x64) (shapeCast S5000x64 H shapeCasts_S5000x64_S5000x64)))
        (broadcastTo S5000x64 (shapeCast S1x64 B shapeCasts_S1x64_S1x64) broadcasts_S1x64_S5000x64))
        (broadcast S5000x64 (Scalar.ofBits .f32 0x00000000#32))) bitsLt_bf16_f32)
      (truncf .bf16 W bitsLt_bf16_f32) (constant S5000x40 .f32 0x00000000#32))
    (broadcastTo S5000x40 (shapeCast S1x40 Bo shapeCasts_S1x40_S1x40) broadcasts_S1x40_S5000x40)

/-- The body's result is the row softmax of the logits block. -/
theorem pay_eq (A H : Vec Ideal S5000x64 .f32) (D : Vec Ideal S5000x1 .f32) (B : Vec Ideal S1x64 .f32)
    (W : Vec Ideal S64x40 .f32) (Bo : Vec Ideal S1x40 .f32) :
    k2_pay1 A H D B W Bo = softmaxBlk (logitsBlk A H D B W Bo) := rfl

/-- The combined, rectified features at (p, j). -/
theorem combBlk_apply (A H : Vec Ideal S5000x64 .f32) (D : Vec Ideal S5000x1 .f32) (B : Vec Ideal S1x64 .f32) (p : Fin 5000) (j : Fin 64) :
    (truncf .bf16 (maximumf (addf (mulf (broadcastTo S5000x64 (shapeCast S5000x1 D shapeCasts_S5000x1_S5000x1) broadcasts_S5000x1_S5000x64)
          (addf (shapeCast S5000x64 A shapeCasts_S5000x64_S5000x64) (shapeCast S5000x64 H shapeCasts_S5000x64_S5000x64)))
        (broadcastTo S5000x64 (shapeCast S1x64 B shapeCasts_S1x64_S1x64) broadcasts_S1x64_S5000x64))
        (broadcast S5000x64 (Scalar.ofBits .f32 0x00000000#32))) bitsLt_bf16_f32 : FVec Ideal S5000x64 .bf16) (ix2 p j)
      = max (D (ix2 p (0 : Fin 1)) * (A (ix2 p j) + H (ix2 p j)) + B (ix2 (0 : Fin 1) j)) 0 := by
  rw [shapeCast_self, shapeCast_self, shapeCast_self, shapeCast_self]
  show max (broadcastTo S5000x64 D broadcasts_S5000x1_S5000x64 (ix2 p j) * (A (ix2 p j) + H (ix2 p j))
      + broadcastTo S5000x64 B broadcasts_S1x64_S5000x64 (ix2 p j)) (Ideal.ofBits .f32 0x00000000#32) = _
  rw [Cert.LayoutRead.bcast_col, broadcastTo_1b_ab_apply, Ideal.ofBits_zero_f32]

/-- The logits block at (p, q). -/
theorem logitsBlk_apply (A H : Vec Ideal S5000x64 .f32) (D : Vec Ideal S5000x1 .f32) (B : Vec Ideal S1x64 .f32)
    (W : Vec Ideal S64x40 .f32) (Bo : Vec Ideal S1x40 .f32) (p : Fin 5000) (q : Fin 40) :
    logitsBlk A H D B W Bo (ix2 p q)
      = matRow (fun j => max (D (ix2 p (0 : Fin 1)) * (A (ix2 p j) + H (ix2 p j)) + B (ix2 (0 : Fin 1) j)) 0) (fun j q => W (ix2 j q)) q
        + Bo (ix2 (0 : Fin 1) q) := by
  unfold logitsBlk
  rw [addf_apply]
  refine congrArg₂ (· + ·) ?_ ?_
  · refine (Ideal.matmul_constant_zero_apply (DotDims.plain 5000 64 40) none _ _ (ix2 p q)).trans ?_
    rw [Cert.DenseRows.plain_contr_sum]
    unfold matRow
    refine Finset.sum_congr rfl fun j _ => ?_
    rw [combBlk_apply]
    rfl
  · rw [shapeCast_self, broadcastTo_1b_ab_apply]

/-- The body's result at (p, q): the softmax at q of row p's logits. -/
theorem pay_apply (A H : Vec Ideal S5000x64 .f32) (D : Vec Ideal S5000x1 .f32) (B : Vec Ideal S1x64 .f32)
    (W : Vec Ideal S64x40 .f32) (Bo : Vec Ideal S1x40 .f32) (p : Fin 5000) (q : Fin 40) :
    k2_pay1 A H D B W Bo (ix2 p q)
      = softmaxRow (fun q' => matRow (fun j => max (D (ix2 p (0 : Fin 1)) * (A (ix2 p j) + H (ix2 p j)) + B (ix2 (0 : Fin 1) j)) 0) (fun j q => W (ix2 j q)) q'
          + Bo (ix2 (0 : Fin 1) q')) q := by
  rw [pay_eq, softmaxBlk_apply]
  exact congrArg (fun l => softmaxRow l q) (funext fun q' => logitsBlk_apply A H D B W Bo p q')

/-! ## One entry of the body's result from one row of the arrays -/

/-- When row p of the row blocks is row r of the arrays and the small blocks are the small arrays, the body's result
    at (p, q) is the dense stage at (r, q). -/
theorem point_eq (H A : S100000x64.Idx → EReal) (D : S100000x1.Idx → EReal) (B : S1x64.Idx → EReal)
    (W : S64x40.Idx → EReal) (Bo : S1x40.Idx → EReal)
    (xA xH : Vec Ideal S5000x64 .f32) (xD : Vec Ideal S5000x1 .f32) (xB : Vec Ideal S1x64 .f32)
    (xW : Vec Ideal S64x40 .f32) (xBo : Vec Ideal S1x40 .f32) (r : Fin 100000) (p : Fin 5000) (q : Fin 40)
    (hA : ∀ j : Fin 64, xA (ix2 p j) = A (ix2 r j)) (hH : ∀ j : Fin 64, xH (ix2 p j) = H (ix2 r j))
    (hD : xD (ix2 p (0 : Fin 1)) = D (ix2 r (0 : Fin 1))) (hB : ∀ j : Fin 64, xB (ix2 (0 : Fin 1) j) = B (ix2 (0 : Fin 1) j))
    (hW : ∀ (j : Fin 64) (k : Fin 40), xW (ix2 j k) = W (ix2 j k)) (hBo : ∀ k : Fin 40, xBo (ix2 (0 : Fin 1) k) = Bo (ix2 (0 : Fin 1) k)) :
    k2_pay1 xA xH xD xB xW xBo (ix2 p q) = Cert.Gcn.stage2 H A D B W Bo (ix2 r q) := by
  rw [pay_apply]
  show _ = softmaxRow (fun k => matRow (comb H A D B r) (fun j k => W (ix2 j k)) k + Bo (ix2 (0 : Fin 1) k)) q
  refine congrArg (fun l => softmaxRow l q) (funext fun k => ?_)
  rw [hBo k]
  refine congrArg (· + Bo (ix2 (0 : Fin 1) k)) ?_
  unfold matRow comb
  refine Finset.sum_congr rfl fun j _ => ?_
  beta_reduce
  rw [hA j, hH j, hD, hB j, hW j k]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-blocked operands move with the result's rows, the three small
    operands stay at their one block, and the result's block row is below 20. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every block row of the result is some point's. -/
theorem idx_onto : ∀ b : Fin 20, ∃ t : Fin cfg2.N, win2_6.index t = ![b.val, 0] :=
  (by decide +kernel : ∀ b : Fin 20, ∃ t : Fin grid2.N, win2_6.index t = ![b.val, 0])

/-- The dense stage of the arrays as the region finds them. -/
abbrev G (c : Dev nD) : S100000x40.Idx → EReal :=
  Cert.Gcn.stage2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- What point t writes back is block t of the dense stage. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S1x64) hz,
    View.ld_unit_zero (S := S64x40) hz, View.ld_unit_zero (S := S1x40) hz]
  obtain ⟨e00, e01, e10, e11, e20, e21, e30, e31, e40, e41, e50, e51, e60, e61⟩ := idx_facts t
  funext y
  obtain ⟨p, q, rfl⟩ : ∃ (p : Fin 5000) (q : Fin 40), y = ix2 p q := ⟨y 0, y 1, eq_ix2 y⟩
  have hp : p.val < 5000 := p.isLt
  have hr : win2_6.index t (0 : Fin 2) * 5000 + p.val < 100000 := by omega
  have hemb : ((cfg2.win 6).blk t).view.emb (ix2 p q) = ix2 (⟨win2_6.index t (0 : Fin 2) * 5000 + p.val, hr⟩ : Fin 100000) q := by
    funext a; apply Fin.ext
    match a with
    | ⟨0, _⟩ => show win2_6.index t (0 : Fin 2) * 5000 + 1 * p.val = win2_6.index t (0 : Fin 2) * 5000 + p.val; omega
    | ⟨1, _⟩ => show win2_6.index t (1 : Fin 2) * 40 + 1 * q.val = q.val; omega
  show k2_pay1 (iblk2 V c 1 t) (iblk2 V c 0 t) (iblk2 V c 2 t) (iblk2 V c 3 t) (iblk2 V c 4 t) (iblk2 V c 5 t) (ix2 p q)
      = G V c (((cfg2.win 6).blk t).view.emb (ix2 p q))
  rw [hemb]
  refine point_eq (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 1 t) (iblk2 V c 0 t) (iblk2 V c 2 t) (iblk2 V c 3 t) (iblk2 V c 4 t) (iblk2 V c 5 t)
    ⟨win2_6.index t (0 : Fin 2) * 5000 + p.val, hr⟩ p q ?_ ?_ ?_ ?_ ?_ ?_
  · intro j
    show V c (Pipeline.arrRef spec2 1) (((cfg2.win 1).blk t).view.emb (ix2 p j)) = V c (Pipeline.arrRef spec2 1) _
    refine congrArg _ (funext fun a => Fin.ext ?_)
    match a with
    | ⟨0, _⟩ => show win2_1.index t (0 : Fin 2) * 5000 + 1 * p.val = win2_6.index t (0 : Fin 2) * 5000 + p.val; omega
    | ⟨1, _⟩ => show win2_1.index t (1 : Fin 2) * 64 + 1 * j.val = j.val; omega
  · intro j
    show V c (Pipeline.arrRef spec2 0) (((cfg2.win 0).blk t).view.emb (ix2 p j)) = V c (Pipeline.arrRef spec2 0) _
    refine congrArg _ (funext fun a => Fin.ext ?_)
    match a with
    | ⟨0, _⟩ => show win2_0.index t (0 : Fin 2) * 5000 + 1 * p.val = win2_6.index t (0 : Fin 2) * 5000 + p.val; omega
    | ⟨1, _⟩ => show win2_0.index t (1 : Fin 2) * 64 + 1 * j.val = j.val; omega
  · show V c (Pipeline.arrRef spec2 2) (((cfg2.win 2).blk t).view.emb (ix2 p (0 : Fin 1))) = V c (Pipeline.arrRef spec2 2) _
    refine congrArg _ (funext fun a => Fin.ext ?_)
    match a with
    | ⟨0, _⟩ => show win2_2.index t (0 : Fin 2) * 5000 + 1 * p.val = win2_6.index t (0 : Fin 2) * 5000 + p.val; omega
    | ⟨1, _⟩ => show win2_2.index t (1 : Fin 2) * 1 + 1 * 0 = 0; omega
  · intro j
    show V c (Pipeline.arrRef spec2 3) (((cfg2.win 3).blk t).view.emb (ix2 (0 : Fin 1) j)) = V c (Pipeline.arrRef spec2 3) _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * j.val = j.val; omega
  · intro j k
    show V c (Pipeline.arrRef spec2 4) (((cfg2.win 4).blk t).view.emb (ix2 j k)) = V c (Pipeline.arrRef spec2 4) _
    refine congrArg _ (funext fun a => Fin.ext ?_)
    match a with
    | ⟨0, _⟩ => show win2_4.index t (0 : Fin 2) * 64 + 1 * j.val = j.val; omega
    | ⟨1, _⟩ => show win2_4.index t (1 : Fin 2) * 40 + 1 * k.val = k.val; omega
  · intro k
    show V c (Pipeline.arrRef spec2 5) (((cfg2.win 5).blk t).view.emb (ix2 (0 : Fin 1) k)) = V c (Pipeline.arrRef spec2 5) _
    refine congrArg _ (funext fun a => Fin.ext ?_)
    match a with
    | ⟨0, _⟩ => show win2_5.index t (0 : Fin 2) * 1 + 1 * 0 = 0; omega
    | ⟨1, _⟩ => show win2_5.index t (1 : Fin 2) * 40 + 1 * k.val = k.val; omega

/-- An index of the result array is in point t's block iff each coordinate is in the block's range on its axis. -/
theorem mem_blk (t : Fin cfg2.N) (i : S100000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v37).slice (win2_6.rect t)).set ↔ _
  rw [View.set_slice_whole, Rect.mem_set_unit]
  exact Iff.rfl

/-- Every index of the result array is in the block of the point whose number is its row divided by 5000. -/
theorem cover (i : S100000x40.Idx) : ∃ t : Fin cfg2.N, (cfg2.win 6).flush t = true ∧ i ∈ ((cfg2.win 6).blk t).view.set := by
  have hi0 : (i 0).val < 100000 := (i 0).isLt
  have hi1 : (i 1).val < 40 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 40 ≤ (i 1).val ∧ (i 1).val < win2_6.index t (1 : Fin 2) * 40 + 40; omega

/-- The result array after the region is the dense stage of the arrays the region found. -/
theorem final (c : Dev nD) : (dat2 (F := Ideal) V c).arrAt 6 cfg2.N
    = Cert.Gcn.stage2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 (G V c) (fun t _ => flushed_eq V c t) (cover)

end Blocks

end Cert.Gcn.Region2

end
-- ==== Proof.KValue.lean ====
/-
  The idealized kernel's result at an index.

  The result array is what the third dense stage leaves; its operands are the second stage's output, that output
  aggregated along the edges, the scale column, and the weights and bias rows; the second stage's operands are the
  same things one layer down, and the first stage's are the node features, the first weights and the scale column.
  With each stage a whole-array function of its operands and each aggregation and the scale column read at an index,
  the chain is the scaled-features arrangement of the specification.
-/
import proofs.«108780_j12859132084330_2_alg».proof.Proof.KRun
import proofs.«108780_j12859132084330_2_alg».proof.Proof.KCols
import proofs.«108780_j12859132084330_2_alg».proof.Proof.Region0
import proofs.«108780_j12859132084330_2_alg».proof.Proof.Region1
import proofs.«108780_j12859132084330_2_alg».proof.Proof.Region2
import proofs.«108780_j12859132084330_2_alg».proof.Proof.Compose
import proofs.«108780_j12859132084330_2_alg».proof.Proof.HostReads

set_option maxRecDepth 16384

noncomputable section

open scoped BigOperators

namespace Cert.Gcn.KValue

open Cert.KernelIdeal Cert.KernelIdeal.Gen Idealize.ShloMosaic Idealize.ShloMosaic.TcCoe Idealize.ShloMosaic.ValueIdx
open Idealize.SL.Sem Cert.Gcn

variable (m : (ℓ : Loc nD τ sig) → Buf (Elt Ideal) ℓ) (ρ : Dev nD → PrngReg)

/-- The first stage's output: the scaled first-layer features, as one function of the node features, the first
    weights and the scale column. -/
theorem H1_eq (c : Dev nD) : KRun.H1 m ρ c
    = stage0 (m ((c : Thread nD τ).loc main_arg0)) (m ((c : Thread nD τ).loc main_arg2))
        (KRun.disColTerm (F := Ideal) (m ((c : Thread nD τ).loc main_arg1))) := by
  unfold KRun.H1
  rw [Region0.final (V1 m ρ) c, KRun.V1_w0, KRun.V1_w1, KRun.V1_w2]

/-- The second stage's output, from the first's. -/
theorem H2_eq (c : Dev nD) : KRun.H2 m ρ c
    = stage1 (KRun.H1 m ρ c) (KRun.aggTerm (F := Ideal) (m ((c : Thread nD τ).loc main_arg1)) (KRun.H1 m ρ c))
        (KRun.disColTerm (F := Ideal) (m ((c : Thread nD τ).loc main_arg1)))
        (shapeCast S1x64 (m ((c : Thread nD τ).loc main_arg3) : Vec Ideal S64 .f32) shapeCasts_S64_S1x64)
        (m ((c : Thread nD τ).loc main_arg4)) := by
  unfold KRun.H2
  rw [Region1.final (V3 m ρ) c, KRun.V3_w0, KRun.V3_w1, KRun.V3_w2, KRun.V3_w3, KRun.V3_w4]

/-- The result array, from the second stage's output. -/
theorem H3_eq (c : Dev nD) : W6 m ρ c (Proc.devRef .tc main_v37)
    = stage2 (KRun.H2 m ρ c) (KRun.aggTerm (F := Ideal) (m ((c : Thread nD τ).loc main_arg1)) (KRun.H2 m ρ c))
        (KRun.disColTerm (F := Ideal) (m ((c : Thread nD τ).loc main_arg1)))
        (shapeCast S1x64 (m ((c : Thread nD τ).loc main_arg5) : Vec Ideal S64 .f32) shapeCasts_S64_S1x64)
        (m ((c : Thread nD τ).loc main_arg6))
        (shapeCast S1x40 (m ((c : Thread nD τ).loc main_arg7) : Vec Ideal S40 .f32) shapeCasts_S40_S1x40) := by
  rw [KRun.W6_v37, Region2.final (V5 m ρ) c, KRun.V5_w0, KRun.V5_w1, KRun.V5_w2, KRun.V5_w3, KRun.V5_w4, KRun.V5_w5]

/-- THE KERNEL'S RESULT AT `(r, q)`: the scaled-features arrangement of the arguments. -/
theorem result_apply (c : Dev nD) (r : Fin 100000) (q : Fin 40) :
    (W6 m ρ c (Proc.devRef .tc main_v37) : S100000x40.Idx → EReal) (ix2 r q)
      = outK (srcCol (m ((c : Thread nD τ).loc main_arg1))) (dstCol (m ((c : Thread nD τ).loc main_arg1)))
          (fun r j => (m ((c : Thread nD τ).loc main_arg0) : S100000x512.Idx → EReal) (ix2 r j))
          (fun j q => (m ((c : Thread nD τ).loc main_arg2) : S512x64.Idx → EReal) (ix2 j q))
          (fun j => (m ((c : Thread nD τ).loc main_arg3) : S64.Idx → EReal) (ix1 j))
          (fun j q => (m ((c : Thread nD τ).loc main_arg4) : S64x64.Idx → EReal) (ix2 j q))
          (fun j => (m ((c : Thread nD τ).loc main_arg5) : S64.Idx → EReal) (ix1 j))
          (fun j q => (m ((c : Thread nD τ).loc main_arg6) : S64x40.Idx → EReal) (ix2 j q))
          (fun q => (m ((c : Thread nD τ).loc main_arg7) : S40.Idx → EReal) (ix1 q)) r q := by
  rw [H3_eq, H2_eq, H1_eq]
  refine (stages_apply (srcCol (m ((c : Thread nD τ).loc main_arg1))) (dstCol (m ((c : Thread nD τ).loc main_arg1)))
    _ _ _ _ _ _ _ _ _ _
    (fun r => KCols.disColTerm_apply (m ((c : Thread nD τ).loc main_arg1)) r)
    (fun r j => KCols.aggTerm_apply (m ((c : Thread nD τ).loc main_arg1)) _ r j)
    (fun r j => KCols.aggTerm_apply (m ((c : Thread nD τ).loc main_arg1)) _ r j) r q).trans ?_
  rw [show (fun j : Fin 64 => shapeCast S1x64 (m ((c : Thread nD τ).loc main_arg3) : Vec Ideal S64 .f32)
        shapeCasts_S64_S1x64 (ix2 (0 : Fin 1) j)) = fun j => (m ((c : Thread nD τ).loc main_arg3) : S64.Idx → EReal) (ix1 j)
      from funext fun j => cast_row _ _ 0 j,
    show (fun j : Fin 64 => shapeCast S1x64 (m ((c : Thread nD τ).loc main_arg5) : Vec Ideal S64 .f32)
        shapeCasts_S64_S1x64 (ix2 (0 : Fin 1) j)) = fun j => (m ((c : Thread nD τ).loc main_arg5) : S64.Idx → EReal) (ix1 j)
      from funext fun j => cast_row _ _ 0 j,
    show (fun q : Fin 40 => shapeCast S1x40 (m ((c : Thread nD τ).loc main_arg7) : Vec Ideal S40 .f32)
        shapeCasts_S40_S1x40 (ix2 (0 : Fin 1) q)) = fun q => (m ((c : Thread nD τ).loc main_arg7) : S40.Idx → EReal) (ix1 q)
      from funext fun q => cast_row _ _ 0 q]

end Cert.Gcn.KValue

end
-- ==== Proof.LibGatherVec.lean ====
/-
  A host gather of single elements of a vector, read at an index.

  The operand is a vector [N]; the start indices are a column [M, 1] of signed integers, one per result element; the
  result is the vector [M] whose element k is the operand's element at the start index of k. A gather clamps every
  start index so that the slice fits inside the operand: the element that is read is the start index taken as a signed
  integer, negative values becoming 0 and values past the last element becoming N - 1. This is the same clamped row
  that a gather of whole rows by the same column reads.
-/
import Idealize.ShloMosaic.PureOps
import Idealize.ShloMosaic.Lib.ValueIdx
import proofs.«108780_j12859132084330_2_alg».proof.Proof.LibGatherRows

noncomputable section

namespace Cert.GatherVec

open Idealize.ShloMosaic Idealize.ShloMosaic.ValueIdx Cert.GatherRows

variable {α : Type}

/-- The dimension numbers of `x[idx]` on a vector `[N]` at `M` indices stored as a column `[M, 1]`: the one axis is
    collapsed and indexed, and the result has no slice axis. -/
abbrev vecGather (N M : ℕ)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `k`: the operand at the clamped start index of `k`. -/
theorem gather_vec_apply {N M w : ℕ} (hN : 0 < N) (wf) (x : (⟨1, ![N]⟩ : Shape).Idx → α)
    (idx : IVec ⟨2, ![M, 1]⟩ w) (k : Fin M) :
    Host.gather (vecGather N M wf) x idx (ix1 k) = x (ix1 (row hN idx k)) := by
  unfold Host.gather
  congr 1
  funext a
  obtain rfl : a = 0 := Subsingleton.elim _ _
  refine Fin.ext ?_
  show (vecGather N M wf).start (ix1 k) idx 0 + (vecGather N M wf).batchCoord (ix1 k) 0
    + (vecGather N M wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 k) ⟨List.idxOf (0 : Fin 1) (vecGather N M wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

end Cert.GatherVec

end
-- ==== Proof.RefStages.lean ====
/-
  The reference program's result, stage by stage, read at an index.
-/
import proofs.«108780_j12859132084330_2_alg».proof.Proof.Gen.ReferenceIdeal.Read
import proofs.«108780_j12859132084330_2_alg».proof.Proof.Gen.ReferenceIdeal.Run
import proofs.«108780_j12859132084330_2_alg».proof.Proof.Spec
import proofs.«108780_j12859132084330_2_alg».proof.Proof.LibGatherVec

noncomputable section

open scoped BigOperators

namespace Cert.Gcn.RefStages

open Cert.ReferenceIdeal Cert.ReferenceIdeal.Gen Cert.ReferenceIdeal.Read Idealize.ShloMosaic Idealize.ShloMosaic.ValueIdx
open Cert.GatherRows Cert.ScatterAddRead Cert.ScatterRead Cert.GatherVec

/-! ## The index columns -/

/-- The destination column as stored. -/
theorem v6_eq (x1 : (⟨S2x1600000, .i32⟩ : BufTy).Contents (Elt Ideal)) : val_main_v6 (F := Ideal) x1 = dstCol x1 := by
  funext i
  rw [val_main_v6_apply, val_main_v3_apply, val_main_v2_apply]
  unfold dstCol
  refine congrArg x1 (funext fun a => Fin.ext ?_)
  match a with
  | ⟨0, _⟩ => rfl
  | ⟨1, _⟩ =>
    have h0 : (i 0).val < 1600000 := (i 0).isLt
    show (i 0).val % 1600000 = (i 0).val
    omega

/-- The destination column as stored. -/
theorem v38_eq (x1 : (⟨S2x1600000, .i32⟩ : BufTy).Contents (Elt Ideal)) : val_main_v38 (F := Ideal) x1 = dstCol x1 := by
  funext i
  rw [val_main_v38_apply, val_main_v3_apply, val_main_v2_apply]
  unfold dstCol
  refine congrArg x1 (funext fun a => Fin.ext ?_)
  match a with
  | ⟨0, _⟩ => rfl
  | ⟨1, _⟩ =>
    have h0 : (i 0).val < 1600000 := (i 0).isLt
    show (i 0).val % 1600000 = (i 0).val
    omega

/-- The destination column as stored. -/
theorem v76_eq (x1 : (⟨S2x1600000, .i32⟩ : BufTy).Contents (Elt Ideal)) : val_main_v76 (F := Ideal) x1 = dstCol x1 := by
  funext i
  rw [val_main_v76_apply, val_main_v3_apply, val_main_v2_apply]
  unfold dstCol
  refine congrArg x1 (funext fun a => Fin.ext ?_)
  match a with
  | ⟨0, _⟩ => rfl
  | ⟨1, _⟩ =>
    have h0 : (i 0).val < 1600000 := (i 0).isLt
    show (i 0).val % 1600000 = (i 0).val
    omega

/-- The wrapped source column. -/
theorem v17_eq (x1 : (⟨S2x1600000, .i32⟩ : BufTy).Contents (Elt Ideal)) : val_main_v17 (F := Ideal) x1 = srcCol x1 := by
  funext i
  rw [val_main_v17_apply, val_main_v16_apply, val_main_v13_apply, val_main_v15_apply, val_main_v12_apply,
    val_main_c_apply, val_main_v14_apply, val_main_c_2_apply, val_main_v1_apply, val_main_v0_apply]
  unfold srcCol wrapIdx
  have e : idx_main_v0 (idx_main_v1 (idx_main_v17 i)) = ix2 (0 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-- The wrapped source column. -/
theorem v32_eq (x1 : (⟨S2x1600000, .i32⟩ : BufTy).Contents (Elt Ideal)) : val_main_v32 (F := Ideal) x1 = srcCol x1 := by
  funext i
  rw [val_main_v32_apply, val_main_v31_apply, val_main_v28_apply, val_main_v30_apply, val_main_v27_apply,
    val_main_c_5_apply, val_main_v29_apply, val_main_c_6_apply, val_main_v1_apply, val_main_v0_apply]
  unfold srcCol wrapIdx
  have e : idx_main_v0 (idx_main_v1 (idx_main_v32 i)) = ix2 (0 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-- The wrapped source column. -/
theorem v55_eq (x1 : (⟨S2x1600000, .i32⟩ : BufTy).Contents (Elt Ideal)) : val_main_v55 (F := Ideal) x1 = srcCol x1 := by
  funext i
  rw [val_main_v55_apply, val_main_v54_apply, val_main_v51_apply, val_main_v53_apply, val_main_v50_apply,
    val_main_c_8_apply, val_main_v52_apply, val_main_c_9_apply, val_main_v1_apply, val_main_v0_apply]
  unfold srcCol wrapIdx
  have e : idx_main_v0 (idx_main_v1 (idx_main_v55 i)) = ix2 (0 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-- The wrapped source column. -/
theorem v70_eq (x1 : (⟨S2x1600000, .i32⟩ : BufTy).Contents (Elt Ideal)) : val_main_v70 (F := Ideal) x1 = srcCol x1 := by
  funext i
  rw [val_main_v70_apply, val_main_v69_apply, val_main_v66_apply, val_main_v68_apply, val_main_v65_apply,
    val_main_c_12_apply, val_main_v67_apply, val_main_c_13_apply, val_main_v1_apply, val_main_v0_apply]
  unfold srcCol wrapIdx
  have e : idx_main_v0 (idx_main_v1 (idx_main_v70 i)) = ix2 (0 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-- The wrapped destination column. -/
theorem v24_eq (x1 : (⟨S2x1600000, .i32⟩ : BufTy).Contents (Elt Ideal)) : val_main_v24 (F := Ideal) x1 = dstWrapCol x1 := by
  funext i
  rw [val_main_v24_apply, val_main_v23_apply, val_main_v20_apply, val_main_v22_apply, val_main_v19_apply,
    val_main_c_3_apply, val_main_v21_apply, val_main_c_4_apply, val_main_v3_apply, val_main_v2_apply]
  unfold dstWrapCol wrapIdx
  have e : idx_main_v2 (idx_main_v3 (idx_main_v24 i)) = ix2 (1 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-- The wrapped destination column. -/
theorem v62_eq (x1 : (⟨S2x1600000, .i32⟩ : BufTy).Contents (Elt Ideal)) : val_main_v62 (F := Ideal) x1 = dstWrapCol x1 := by
  funext i
  rw [val_main_v62_apply, val_main_v61_apply, val_main_v58_apply, val_main_v60_apply, val_main_v57_apply,
    val_main_c_10_apply, val_main_v59_apply, val_main_c_11_apply, val_main_v3_apply, val_main_v2_apply]
  unfold dstWrapCol wrapIdx
  have e : idx_main_v2 (idx_main_v3 (idx_main_v62 i)) = ix2 (1 : Fin 2) (i 0) := by
    refine funext fun a => Fin.ext ?_
    match a with
    | ⟨0, _⟩ => rfl
    | ⟨1, _⟩ =>
      have h0 : (i 0).val < 1600000 := (i 0).isLt
      show (i 0).val % 1600000 = (i 0).val
      omega
  rw [e]
  rfl

/-! ## Degrees and scales -/

/-- The word of the float one. -/
theorem ofBits_one_f32 : Ideal.ofBits .f32 0x3F800000#32 = 1 := by
  simp [Ideal.ofBits, Ideal.ieee, -EReal.coe_mul]; norm_num

/-- The scatter-add of ones along the destination column: the number of edges arriving at `r`. -/
theorem v7_apply' (x1 : (⟨S2x1600000, .i32⟩ : BufTy).Contents (Elt Ideal)) (r : Fin 100000) :
    val_main_v7 (F := Ideal) x1 (ix1 r) = (0 : EReal) + ∑ _k ∈ landing (dstCol x1) r.val, (1 : EReal) := by
  unfold val_main_v7
  rw [v6_eq]
  refine (scatterAdd_vec_apply (N := 100000) (M := 1600000) Facts₀.scatter_S100000_S1600000x1_S1600000_n_0_0_1_wf
    (val_main_v5 (F := Ideal)) (dstCol x1) (val_main_v4 (F := Ideal)) r).trans ?_
  have h5 : val_main_v5 (F := Ideal) (ix1 r) = (0 : EReal) := by
    rw [val_main_v5_apply, val_main_cst_0_apply]; exact Ideal.ofBits_zero_f32
  have h4 : ∀ k : Fin 1600000, val_main_v4 (F := Ideal) (ix1 k) = (1 : EReal) := fun k => by
    rw [val_main_v4_apply, val_main_cst_apply]; exact ofBits_one_f32
  rw [h5]
  exact congrArg _ (Finset.sum_congr rfl fun k _ => h4 k)

/-- The degree. -/
theorem v9_apply' (x1 : (⟨S2x1600000, .i32⟩ : BufTy).Contents (Elt Ideal)) (r : Fin 100000) :
    val_main_v9 (F := Ideal) x1 (ix1 r) = deg (dstCol x1) r := by
  rw [val_main_v9_apply, v7_apply', val_main_v8_apply, val_main_cst_1_apply]
  unfold deg
  show _ + Ideal.ofBits .f32 0x3F800000#32 = _
  rw [ofBits_one_f32]

/-- The scale. -/
theorem v10_apply' (x1 : (⟨S2x1600000, .i32⟩ : BufTy).Contents (Elt Ideal)) (r : Fin 100000) :
    val_main_v10 (F := Ideal) x1 (ix1 r) = dis (dstCol x1) r := by
  rw [val_main_v10_apply, v9_apply']
  unfold dis
  exact Ideal.hostUnary_rsqrt_def _

/-! ## The first matrix product -/

/-- The first layer's features before aggregation: a row of the input times the first weight matrix. -/
theorem v11_apply' (x0 : (⟨S100000x512, .f32⟩ : BufTy).Contents (Elt Ideal)) (x2 : (⟨S512x64, .f32⟩ : BufTy).Contents (Elt Ideal))
    (r : Fin 100000) (j : Fin 64) :
    val_main_v11 (F := Ideal) x0 x2 (ix2 r j) = p1 (fun r j => x0 (ix2 r j)) (fun j q => x2 (ix2 j q)) r j := by
  rw [val_main_v11_apply]
  unfold p1 matRow
  refine Finset.sum_congr rfl fun k _ => ?_
  have el : lidx_main_v11 (ix2 r j) k = ix2 r k :=
    funext fun a => Fin.ext (by match a with | ⟨0, _⟩ => rfl | ⟨1, _⟩ => rfl)
  have er : ridx_main_v11 (ix2 r j) k = ix2 k j :=
    funext fun a => Fin.ext (by match a with | ⟨0, _⟩ => rfl | ⟨1, _⟩ => rfl)
  show x0 (lidx_main_v11 (ix2 r j) k) * x2 (ridx_main_v11 (ix2 r j) k) = x0 (ix2 r k) * x2 (ix2 k j)
  rw [el, er]

/-! ## The gathers along the edges -/

/-- A scale gathered by an index column: the scale of the clamped row. -/
theorem gatherDis (x1 : (⟨S2x1600000, .i32⟩ : BufTy).Contents (Elt Ideal)) (col : IVec ⟨2, ![E, 1]⟩ 32) (k : Fin 1600000) :
    Host.gather gather_S100000_S1600000x1_S1600000_n_0_n_n_0_1_1 (val_main_v10 (F := Ideal) x1) col (ix1 k)
      = dis (dstCol x1) (rowOf col k) := by
  refine (gather_vec_apply (N := 100000) (M := 1600000) (by decide)
    Facts₀.gather_S100000_S1600000x1_S1600000_n_0_n_n_0_1_1_wf (val_main_v10 (F := Ideal) x1) col k).trans ?_
  exact v10_apply' x1 _

/-- A feature row gathered by an index column: the clamped row, lane by lane. -/
theorem gatherRows64 (Pv : (⟨S100000x64, .f32⟩ : BufTy).Contents (Elt Ideal)) (col : IVec ⟨2, ![E, 1]⟩ 32)
    (k : Fin 1600000) (j : Fin 64) :
    Host.gather gather_S100000x64_S1600000x1_S1600000x64_1_0_n_n_0_1_164 Pv col (ix2 k j) = Pv (ix2 (rowOf col k) j) :=
  gather_rows_apply (N := 100000) (M := 1600000) (B := 64) (by decide)
    Facts₀.gather_S100000x64_S1600000x1_S1600000x64_1_0_n_n_0_1_164_wf Pv col k j

/-! ## Layer 1 -/

/-- The weight of edge `k`: the scale at its source row times the scale at its wrapped destination row. -/
theorem v26_apply' (x1 : (⟨S2x1600000, .i32⟩ : BufTy).Contents (Elt Ideal)) (k : Fin 1600000) :
    val_main_v26 (F := Ideal) x1 (ix1 k)
      = dis (dstCol x1) (rowOf (srcCol x1) k) * dis (dstCol x1) (rowOf (dstWrapCol x1) k) := by
  rw [val_main_v26_apply]
  unfold val_main_v18 val_main_v25
  rw [v17_eq, v24_eq, gatherDis, gatherDis]
  exact Ideal.mulf_def _ _

/-- The message along edge `k`: the source row's features times the edge's weight. -/
theorem v36_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (k : Fin 1600000) (j : Fin 64) :
    val_main_v36 (F := Ideal) x0 x1 x2 (ix2 k j)
      = val_main_v11 (F := Ideal) x0 x2 (ix2 (rowOf (srcCol x1) k) j)
        * (dis (dstCol x1) (rowOf (srcCol x1) k) * dis (dstCol x1) (rowOf (dstWrapCol x1) k)) := by
  rw [val_main_v36_apply, val_main_v35_apply, val_main_v34_apply]
  have e : idx_main_v34 (idx_main_v35 (ix2 k j)) = ix1 k :=
    funext fun a => Fin.ext (by match a with | ⟨0, _⟩ => rfl)
  rw [e, v26_apply']
  unfold val_main_v33
  rw [v32_eq, gatherRows64]
  exact Ideal.mulf_def _ _

/-- The messages added up at their destination rows. -/
theorem v39_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (r : Fin 100000) (j : Fin 64) :
    val_main_v39 (F := Ideal) x0 x1 x2 (ix2 r j)
      = aggR (srcCol x1) (dstCol x1) (dstWrapCol x1) (dis (dstCol x1)) (fun r j => val_main_v11 (F := Ideal) x0 x2 (ix2 r j)) r j := by
  unfold val_main_v39
  rw [v38_eq]
  refine (scatterAdd_row_apply (N := 100000) (M := 1600000) (B := 64)
    Facts₀.scatter_S100000x64_S1600000x1_S1600000x64_1_0_0_1_wf (val_main_v37 (F := Ideal)) (dstCol x1)
    (val_main_v36 (F := Ideal) x0 x1 x2) r j).trans ?_
  have h0 : val_main_v37 (F := Ideal) (ix2 r j) = (0 : EReal) := by
    rw [val_main_v37_apply, val_main_cst_7_apply]; exact Ideal.ofBits_zero_f32
  rw [h0]
  unfold aggR
  exact congrArg _ (Finset.sum_congr rfl fun k _ => v36_apply' x0 x1 x2 k j)

/-- The node's own features times its squared scale. -/
theorem v43_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (r : Fin 100000) (j : Fin 64) :
    val_main_v43 (F := Ideal) x0 x1 x2 (ix2 r j)
      = val_main_v11 (F := Ideal) x0 x2 (ix2 r j) * (dis (dstCol x1) r * dis (dstCol x1) r) := by
  rw [val_main_v43_apply, val_main_v42_apply, val_main_v41_apply, val_main_v40_apply]
  have e : idx_main_v41 (idx_main_v42 (ix2 r j)) = ix1 r :=
    funext fun a => Fin.ext (by match a with | ⟨0, _⟩ => rfl)
  rw [e, v10_apply']
  simp only [Ideal.mulf_def]

/-- The bias, the same in every row. -/
theorem v46_apply' (x3 : (⟨S64, .f32⟩ : BufTy).Contents (Elt Ideal)) (r : Fin 100000) (j : Fin 64) :
    val_main_v46 (F := Ideal) x3 (ix2 r j) = x3 (ix1 j) := by
  rw [val_main_v46_apply, val_main_v45_apply]
  exact congrArg x3 (funext fun a => Fin.ext (by match a with | ⟨0, _⟩ => rfl))

/-- The layer's rectified output. -/
theorem v48_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (r : Fin 100000) (j : Fin 64) :
    val_main_v48 (F := Ideal) x0 x1 x2 x3 (ix2 r j)
      = combR (srcCol x1) (dstCol x1) (dstWrapCol x1) (dis (dstCol x1)) (fun r j => val_main_v11 (F := Ideal) x0 x2 (ix2 r j)) (fun j => x3 (ix1 j)) r j := by
  rw [val_main_v48_apply, val_main_v47_apply, val_main_v44_apply, v39_apply', v43_apply', v46_apply',
    val_main_call0_v0_apply, val_main_call0_cst_apply]
  unfold combR
  simp only [Ideal.maximumf_def, Ideal.addf_def, Ideal.ofBits_def, Ideal.ofBits_zero_f32]

/-! ## The second matrix product -/

/-- The first product as a function of row and lane. -/
theorem P1_eq (x0 : (⟨S100000x512, .f32⟩ : BufTy).Contents (Elt Ideal)) (x2 : (⟨S512x64, .f32⟩ : BufTy).Contents (Elt Ideal)) :
    (fun (r : Fin N) (j : Fin 64) => val_main_v11 (F := Ideal) x0 x2 (ix2 r j)) = p1 (fun r j => x0 (ix2 r j)) (fun j q => x2 (ix2 j q)) :=
  funext fun r => funext fun j => v11_apply' x0 x2 r j

/-- The first layer's output in the specification's words. -/
theorem c1_apply (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (r : Fin 100000) (j : Fin 64) :
    val_main_v48 (F := Ideal) x0 x1 x2 x3 (ix2 r j)
      = combR (srcCol x1) (dstCol x1) (dstWrapCol x1) (dis (dstCol x1)) (p1 (fun r j => x0 (ix2 r j)) (fun j q => x2 (ix2 j q))) (fun j => x3 (ix1 j)) r j := by
  rw [v48_apply', P1_eq]

/-- The second layer's features before aggregation: a row of the first layer's output times the second weight matrix. -/
theorem v49_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v49 (F := Ideal) x0 x1 x2 x3 x4 (ix2 r j) = p2 (srcCol x1) (dstCol x1) (dstWrapCol x1) (fun r j => x0 (ix2 r j)) (fun j q => x2 (ix2 j q)) (fun j => x3 (ix1 j)) (fun j q => x4 (ix2 j q)) r j := by
  rw [val_main_v49_apply]
  unfold p2 matRow
  refine Finset.sum_congr rfl fun k _ => ?_
  have el : lidx_main_v49 (ix2 r j) k = ix2 r k := funext fun a => Fin.ext (by match a with | ⟨0, _⟩ => rfl | ⟨1, _⟩ => rfl)
  have er : ridx_main_v49 (ix2 r j) k = ix2 k j := funext fun a => Fin.ext (by match a with | ⟨0, _⟩ => rfl | ⟨1, _⟩ => rfl)
  show val_main_v48 (F := Ideal) x0 x1 x2 x3 (lidx_main_v49 (ix2 r j) k) * x4 (ridx_main_v49 (ix2 r j) k)
    = combR (srcCol x1) (dstCol x1) (dstWrapCol x1) (dis (dstCol x1)) (p1 (fun r j => x0 (ix2 r j)) (fun j q => x2 (ix2 j q))) (fun j => x3 (ix1 j)) r k * x4 (ix2 k j)
  rw [el, er, c1_apply]

/-! ## Layer 2 -/

/-- The weight of edge `k`: the scale at its source row times the scale at its wrapped destination row. -/
theorem v64_apply' (x1 : (⟨S2x1600000, .i32⟩ : BufTy).Contents (Elt Ideal)) (k : Fin 1600000) :
    val_main_v64 (F := Ideal) x1 (ix1 k)
      = dis (dstCol x1) (rowOf (srcCol x1) k) * dis (dstCol x1) (rowOf (dstWrapCol x1) k) := by
  rw [val_main_v64_apply]
  unfold val_main_v56 val_main_v63
  rw [v55_eq, v62_eq, gatherDis, gatherDis]
  exact Ideal.mulf_def _ _

/-- The message along edge `k`: the source row's features times the edge's weight. -/
theorem v74_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (k : Fin 1600000) (j : Fin 64) :
    val_main_v74 (F := Ideal) x0 x1 x2 x3 x4 (ix2 k j)
      = val_main_v49 (F := Ideal) x0 x1 x2 x3 x4 (ix2 (rowOf (srcCol x1) k) j)
        * (dis (dstCol x1) (rowOf (srcCol x1) k) * dis (dstCol x1) (rowOf (dstWrapCol x1) k)) := by
  rw [val_main_v74_apply, val_main_v73_apply, val_main_v72_apply]
  have e : idx_main_v72 (idx_main_v73 (ix2 k j)) = ix1 k :=
    funext fun a => Fin.ext (by match a with | ⟨0, _⟩ => rfl)
  rw [e, v64_apply']
  unfold val_main_v71
  rw [v70_eq, gatherRows64]
  exact Ideal.mulf_def _ _

/-- The messages added up at their destination rows. -/
theorem v77_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v77 (F := Ideal) x0 x1 x2 x3 x4 (ix2 r j)
      = aggR (srcCol x1) (dstCol x1) (dstWrapCol x1) (dis (dstCol x1)) (fun r j => val_main_v49 (F := Ideal) x0 x1 x2 x3 x4 (ix2 r j)) r j := by
  unfold val_main_v77
  rw [v76_eq]
  refine (scatterAdd_row_apply (N := 100000) (M := 1600000) (B := 64)
    Facts₀.scatter_S100000x64_S1600000x1_S1600000x64_1_0_0_1_wf (val_main_v75 (F := Ideal)) (dstCol x1)
    (val_main_v74 (F := Ideal) x0 x1 x2 x3 x4) r j).trans ?_
  have h0 : val_main_v75 (F := Ideal) (ix2 r j) = (0 : EReal) := by
    rw [val_main_v75_apply, val_main_cst_14_apply]; exact Ideal.ofBits_zero_f32
  rw [h0]
  unfold aggR
  exact congrArg _ (Finset.sum_congr rfl fun k _ => v74_apply' x0 x1 x2 x3 x4 k j)

/-- The node's own features times its squared scale. -/
theorem v81_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v81 (F := Ideal) x0 x1 x2 x3 x4 (ix2 r j)
      = val_main_v49 (F := Ideal) x0 x1 x2 x3 x4 (ix2 r j) * (dis (dstCol x1) r * dis (dstCol x1) r) := by
  rw [val_main_v81_apply, val_main_v80_apply, val_main_v79_apply, val_main_v78_apply]
  have e : idx_main_v79 (idx_main_v80 (ix2 r j)) = ix1 r :=
    funext fun a => Fin.ext (by match a with | ⟨0, _⟩ => rfl)
  rw [e, v10_apply']
  simp only [Ideal.mulf_def]

/-- The bias, the same in every row. -/
theorem v84_apply' (x5 : (⟨S64, .f32⟩ : BufTy).Contents (Elt Ideal)) (r : Fin 100000) (j : Fin 64) :
    val_main_v84 (F := Ideal) x5 (ix2 r j) = x5 (ix1 j) := by
  rw [val_main_v84_apply, val_main_v83_apply]
  exact congrArg x5 (funext fun a => Fin.ext (by match a with | ⟨0, _⟩ => rfl))

/-- The layer's rectified output. -/
theorem v86_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (r : Fin 100000) (j : Fin 64) :
    val_main_v86 (F := Ideal) x0 x1 x2 x3 x4 x5 (ix2 r j)
      = combR (srcCol x1) (dstCol x1) (dstWrapCol x1) (dis (dstCol x1)) (fun r j => val_main_v49 (F := Ideal) x0 x1 x2 x3 x4 (ix2 r j)) (fun j => x5 (ix1 j)) r j := by
  rw [val_main_v86_apply, val_main_v85_apply, val_main_v82_apply, v77_apply', v81_apply', v84_apply',
    val_main_call1_v0_apply, val_main_call1_cst_apply]
  unfold combR
  simp only [Ideal.maximumf_def, Ideal.addf_def, Ideal.ofBits_def, Ideal.ofBits_zero_f32]

/-! ## The logits -/

/-- The second product as a function of row and lane. -/
theorem P2_eq (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) :
    (fun (r : Fin N) (j : Fin 64) => val_main_v49 (F := Ideal) x0 x1 x2 x3 x4 (ix2 r j)) = p2 (srcCol x1) (dstCol x1) (dstWrapCol x1) (fun r j => x0 (ix2 r j)) (fun j q => x2 (ix2 j q)) (fun j => x3 (ix1 j)) (fun j q => x4 (ix2 j q)) :=
  funext fun r => funext fun j => v49_apply' x0 x1 x2 x3 x4 r j

/-- The second layer's output in the specification's words. -/
theorem c2_apply (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (r : Fin 100000) (j : Fin 64) :
    val_main_v86 (F := Ideal) x0 x1 x2 x3 x4 x5 (ix2 r j)
      = combR (srcCol x1) (dstCol x1) (dstWrapCol x1) (dis (dstCol x1)) (p2 (srcCol x1) (dstCol x1) (dstWrapCol x1) (fun r j => x0 (ix2 r j)) (fun j q => x2 (ix2 j q)) (fun j => x3 (ix1 j)) (fun j q => x4 (ix2 j q))) (fun j => x5 (ix1 j)) r j := by
  rw [v86_apply', P2_eq]

/-- The logits: a row of the second layer's output times the output weights, plus the output bias. -/
theorem v90_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (q : Fin 40) :
    val_main_v90 (F := Ideal) x0 x1 x2 x3 x4 x5 x6 x7 (ix2 r q) = logitsR (srcCol x1) (dstCol x1) (dstWrapCol x1) (fun r j => x0 (ix2 r j)) (fun j q => x2 (ix2 j q)) (fun j => x3 (ix1 j)) (fun j q => x4 (ix2 j q)) (fun j => x5 (ix1 j)) (fun j q => x6 (ix2 j q)) (fun q => x7 (ix1 q)) r q := by
  rw [val_main_v90_apply, val_main_v87_apply, val_main_v89_apply, val_main_v88_apply, Ideal.addf_def]
  unfold logitsR matRow
  have eb : idx_main_v88 (idx_main_v89 (ix2 r q)) = ix1 q := funext fun a => Fin.ext (by match a with | ⟨0, _⟩ => rfl)
  rw [eb]
  refine congrArg (· + x7 (ix1 q)) (Finset.sum_congr rfl fun k _ => ?_)
  have el : lidx_main_v87 (ix2 r q) k = ix2 r k := funext fun a => Fin.ext (by match a with | ⟨0, _⟩ => rfl | ⟨1, _⟩ => rfl)
  have er : ridx_main_v87 (ix2 r q) k = ix2 k q := funext fun a => Fin.ext (by match a with | ⟨0, _⟩ => rfl | ⟨1, _⟩ => rfl)
  show val_main_v86 (F := Ideal) x0 x1 x2 x3 x4 x5 (lidx_main_v87 (ix2 r q) k) * x6 (ridx_main_v87 (ix2 r q) k)
    = combR (srcCol x1) (dstCol x1) (dstWrapCol x1) (dis (dstCol x1)) (p2 (srcCol x1) (dstCol x1) (dstWrapCol x1) (fun r j => x0 (ix2 r j)) (fun j q => x2 (ix2 j q)) (fun j => x3 (ix1 j)) (fun j q => x4 (ix2 j q))) (fun j => x5 (ix1 j)) r k * x6 (ix2 k q)
  rw [el, er, c2_apply]

/-- A row of logits as a function of the class. -/
theorem logits_eq (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    (fun q => val_main_v90 (F := Ideal) x0 x1 x2 x3 x4 x5 x6 x7 (ix2 r q)) = logitsR (srcCol x1) (dstCol x1) (dstWrapCol x1) (fun r j => x0 (ix2 r j)) (fun j q => x2 (ix2 j q)) (fun j => x3 (ix1 j)) (fun j q => x4 (ix2 j q)) (fun j => x5 (ix1 j)) (fun j q => x6 (ix2 j q)) (fun q => x7 (ix1 q)) r :=
  funext fun q => v90_apply' x0 x1 x2 x3 x4 x5 x6 x7 r q

/-! ## The row softmax -/

/-- The word of minus infinity. -/
theorem ofBits_ninf_f32 : Ideal.ofBits .f32 0xFF800000#32 = ⊥ := by simp [Ideal.ofBits, Ideal.ieee]

/-- A row maximum of a forty-lane array: the fold of the maximum from minus infinity over the row's entries. -/
theorem rowmax_read (x : (⟨S100000x40, .f32⟩ : BufTy).Contents (Elt Ideal)) (r : Fin 100000) :
    (Host.reduce (FloatOps.maximumf (F := Ideal) (φ := .f32)) x (val_main_cst_15 (F := Ideal))
      Facts₀.reducesTo_S100000x40_S100000_d1 Facts₀.h_S_ (ix1 r) : EReal)
      = rowMax (fun q => x (ix2 r q)) := by
  have h : S100000x40.Reduces [1] S100000 := by decide
  have key := Host.reduce_eq_fold_single (s := S100000x40) (t := S100000) (u := S_) (a := (1 : Fin 2))
    (FloatOps.maximumf (F := Ideal) (φ := .f32)) x
    (val_main_cst_15 (F := Ideal)) Facts₀.reducesTo_S100000x40_S100000_d1 h Facts₀.h_S_ (ix1 r)
  refine key.trans ?_
  have e : x ∘ h.lift (ix1 r) = (fun q => x (ix2 r q)) :=
    funext fun q => congrArg x (funext fun a => Fin.ext (by match a with | ⟨0, _⟩ => rfl | ⟨1, _⟩ => rfl))
  rw [e]
  rfl

/-- The row maximum of the logits. -/
theorem v91_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    val_main_v91 (F := Ideal) x0 x1 x2 x3 x4 x5 x6 x7 (ix1 r) = rowMax (fun q => val_main_v90 (F := Ideal) x0 x1 x2 x3 x4 x5 x6 x7 (ix2 r q)) := by
  unfold val_main_v91
  exact rowmax_read (val_main_v90 (F := Ideal) x0 x1 x2 x3 x4 x5 x6 x7) r

/-- The maximum with minus infinity changes nothing. -/
theorem v93_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    val_main_v93 (F := Ideal) x0 x1 x2 x3 x4 x5 x6 x7 (ix1 r) = rowMax (fun q => val_main_v90 (F := Ideal) x0 x1 x2 x3 x4 x5 x6 x7 (ix2 r q)) := by
  rw [val_main_v93_apply, v91_apply', val_main_v92_apply, val_main_cst_16_apply, Ideal.maximumf_def, Ideal.ofBits_def,
    ofBits_ninf_f32]
  exact max_eq_right bot_le

/-- The exponential of a logit shifted by its row's maximum. -/
theorem v97_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (q : Fin 40) :
    val_main_v97 (F := Ideal) x0 x1 x2 x3 x4 x5 x6 x7 (ix2 r q)
      = Ideal.exp (val_main_v90 (F := Ideal) x0 x1 x2 x3 x4 x5 x6 x7 (ix2 r q) - rowMax (fun q => val_main_v90 (F := Ideal) x0 x1 x2 x3 x4 x5 x6 x7 (ix2 r q))) := by
  rw [val_main_v97_apply, val_main_v96_apply, val_main_v95_apply, val_main_v94_apply]
  have e : idx_main_v94 (idx_main_v95 (ix2 r q)) = ix1 r := funext fun a => Fin.ext (by match a with | ⟨0, _⟩ => rfl)
  rw [e, v93_apply', Ideal.hostUnary_exp_def, Ideal.subf_def]

/-- The row's sum of exponentials. -/
theorem v98_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    val_main_v98 (F := Ideal) x0 x1 x2 x3 x4 x5 x6 x7 (ix1 r)
      = ∑ k : Fin 40, Ideal.exp (val_main_v90 (F := Ideal) x0 x1 x2 x3 x4 x5 x6 x7 (ix2 r k) - rowMax (fun q => val_main_v90 (F := Ideal) x0 x1 x2 x3 x4 x5 x6 x7 (ix2 r q))) := by
  rw [val_main_v98_apply, val_main_cst_17_apply, Ideal.ofBits_def, Ideal.ofBits_zero_f32, zero_add]
  refine Finset.sum_congr rfl fun k _ => ?_
  have e : idx_main_v98 (ix1 r) k = ix2 r k := funext fun a => Fin.ext (by match a with | ⟨0, _⟩ => rfl | ⟨1, _⟩ => rfl)
  rw [e, v97_apply']

/-- The result as the softmax of the row of logits. -/
theorem v101_apply' (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (q : Fin 40) :
    val_main_v101 (F := Ideal) x0 x1 x2 x3 x4 x5 x6 x7 (ix2 r q) = softmaxRow (fun q => val_main_v90 (F := Ideal) x0 x1 x2 x3 x4 x5 x6 x7 (ix2 r q)) q := by
  rw [val_main_v101_apply, val_main_v100_apply, val_main_v99_apply]
  have e : idx_main_v99 (idx_main_v100 (ix2 r q)) = ix1 r := funext fun a => Fin.ext (by match a with | ⟨0, _⟩ => rfl)
  rw [e, v98_apply', v97_apply']
  exact Ideal.hostDivf_def _ _

/-! ## The reference's result at an index -/

/-- THE REFERENCE READ AT `(r, q)`: the softmax, over the forty classes, of the two-layer graph convolution's logits
    with every edge weighted by the scales of its two ends. -/
theorem result_apply (x0 : (⟨S100000x512, .f32⟩ : BufTy).Contents (Elt Ideal)) (x1 : (⟨S2x1600000, .i32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (q : Fin 40) :
    val_main_v101 (F := Ideal) x0 x1 x2 x3 x4 x5 x6 x7 (ix2 r q)
      = outR (srcCol x1) (dstCol x1) (dstWrapCol x1) (fun r j => x0 (ix2 r j)) (fun j q => x2 (ix2 j q)) (fun j => x3 (ix1 j)) (fun j q => x4 (ix2 j q)) (fun j => x5 (ix1 j)) (fun j q => x6 (ix2 j q)) (fun q => x7 (ix1 q)) r q := by
  unfold outR
  rw [v101_apply', logits_eq]

end Cert.Gcn.RefStages

end
-- ==== Proof.lean ====
/-
  The certificate of a two-layer graph convolution with a dense softmax head: a kernel that scales the node features
  once per node and aggregates the scaled rows along the edges (three dense stages over blocks of 5000 rows, with the
  gathers and scatter-adds between them) against a reference that weights every edge by the product of its endpoints'
  scales.

  Frames. Both printed kernel programs run, fault-free, with their arguments unchanged (the generated frames of the
  three regions); the reference is a straight line of host operations, whose generated run gives its frame.

  Preserves. The idealization rewrote nothing: the idealized kernel is the kernel's own text read on the extended reals.

  Algebraic. On the extended reals the kernel's result at (r, q) is the softmax over q of
      sum_j C2 r j * Wout j q + bout q,
  where a layer turns scaled features Hs into C r j = max (d r * (sum_{k : dst k = r} Hs (src k) j + Hs r j) + b j) 0
  and the next scaled features are (C W) r q * d r (Spec.lean, outK); the reference's is the same softmax with
  C r j = max (sum_{k : dst k = r} P (src k) j * (d (src k) * d (dst k)) + P r j * (d r * d r) + b j) 0 (outR). The two
  agree because, the inputs being finite, every feature and every scale is a real number and the destination's scale
  distributes over the sum along the arriving edges (Algebra.lean); an arriving edge's wrapped and clamped destination
  row is the row it arrives at (Compose.lean). The kernel's side is read off its run region by region (KRun.lean,
  Region0/1/2.lean, KValue.lean), the reference's off its run operation by operation (RefStages.lean); the
  precondition gives the finiteness (PreFinite.lean).
-/
import proofs.«108780_j12859132084330_2_alg».proof.Defs
import proofs.«108780_j12859132084330_2_alg».proof.Proof.Gen.Kernel
import proofs.«108780_j12859132084330_2_alg».proof.Proof.Gen.Kernel.Frame
import proofs.«108780_j12859132084330_2_alg».proof.Proof.Gen.KernelIdeal
import proofs.«108780_j12859132084330_2_alg».proof.Proof.Gen.KernelIdeal.Frame
import proofs.«108780_j12859132084330_2_alg».proof.Proof.Gen.ReferenceIdeal
import proofs.«108780_j12859132084330_2_alg».proof.Proof.Gen.ReferenceIdeal.Run
import proofs.«108780_j12859132084330_2_alg».proof.Proof.Gen.ReferenceIdeal.Read
import proofs.«108780_j12859132084330_2_alg».proof.Proof.Gen.Pre_finite_inputs
import proofs.«108780_j12859132084330_2_alg».proof.Proof.Algebra
import proofs.«108780_j12859132084330_2_alg».proof.Proof.Compose
import proofs.«108780_j12859132084330_2_alg».proof.Proof.PreFinite
import proofs.«108780_j12859132084330_2_alg».proof.Proof.KRun
import proofs.«108780_j12859132084330_2_alg».proof.Proof.KValue
import proofs.«108780_j12859132084330_2_alg».proof.Proof.RefStages
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same array: the kernel's run names its result, the reference's run names
    its own, and index by index the two are the two arrangements of one function of the (agreeing, finite)
    arguments. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v37),
    Cert.Gcn.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v101_eq, h0, h1, h2, h3, h4, h5, h6, h7]
  obtain ⟨hx, hW1, hb1, hW2⟩ := Cert.Gcn.real_of_pre _ _ _ _ _ _ _ _ (hpre c)
  funext i
  obtain ⟨r, q, rfl⟩ : ∃ (r : Fin 100000) (q : Fin 40), i = ix2 r q := ⟨i 0, i 1, eq_ix2 i⟩
  rw [Cert.Gcn.RefStages.result_apply]
  exact ((Cert.Gcn.KValue.result_apply m ρ c r q).trans (Cert.Gcn.out_eq _ _ _ _ _ _ _ _ _ _
    (Cert.Gcn.rowOf_dstWrap_of_landing _) (fun r j => hx _) (fun j q => hW1 _) (fun j => hb1 _) (fun j q => hW2 _) r q)).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
